-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x768 : Shape := ⟨3, ![8, 4096, 768]⟩
abbrev S768x768 : Shape := ⟨2, ![768, 768]⟩
abbrev S768 : Shape := ⟨1, ![768]⟩
abbrev S_ : Shape := ⟨0, ![]⟩

class Facts : Prop where
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_arg5 : FVec F S768x768 .f32) (main_arg6 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S8x4096x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) : IVec S_ 1 :=
  let main_v0 : FVec F S8x4096x768 .f32 := Host.absf main_arg0
  let main_cst : FVec F S_ .f32 := constant S_ .f32 0x7F800000#32
  let main_v1 : FVec F S8x4096x768 .f32 := broadcastInDim S8x4096x768 ![] bcast_S_S8x4096x768 main_cst
  let main_v2 : IVec S8x4096x768 1 := cmpf .olt main_v0 main_v1
  let main_c : IVec S_ 1 := constantI S_ 1 1#1
  let main_v3 : IVec S_ 1 := (fun x v => Host.reduce IntOp.andi x v reducesTo_S8x4096x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_v13 main_v16
-- ==== Kernel.lean ====
abbrev S8x4096x768 : Shape := ⟨3, ![8, 4096, 768]⟩
abbrev S768x768 : Shape := ⟨2, ![768, 768]⟩
abbrev S768 : Shape := ⟨1, ![768]⟩
abbrev S32768x768 : Shape := ⟨2, ![32768, 768]⟩
abbrev S2304x768 : Shape := ⟨2, ![2304, 768]⟩
abbrev S768x2304 : Shape := ⟨2, ![768, 2304]⟩
abbrev S1x768 : Shape := ⟨2, ![1, 768]⟩
abbrev S1024x768 : Shape := ⟨2, ![1024, 768]⟩
abbrev S1024x2304 : Shape := ⟨2, ![1024, 2304]⟩

abbrev nBuf : Space → Nat
  | .hbm => 20
  | .vmem => 12
  | .smem => 0
  | _ => 0

abbrev bufTy : (tb : Table) → Fin (tcTables nBuf tb) → BufTy
  | .hbm, ⟨0, _⟩ => ⟨S8x4096x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S32768x768, .f32⟩
  | .hbm, ⟨8, _⟩ => ⟨S2304x768, .f32⟩
  | .hbm, ⟨9, _⟩ => ⟨S768x2304, .f32⟩
  | .hbm, ⟨10, _⟩ => ⟨S768x2304, .bf16⟩
  | .hbm, ⟨11, _⟩ => ⟨S1x768, .f32⟩
  | .hbm, ⟨12, _⟩ => ⟨S1x768, .f32⟩
  | .hbm, ⟨13, _⟩ => ⟨S1x768, .f32⟩
  | .hbm, ⟨14, _⟩ => ⟨S32768x768, .f32⟩
  | .hbm, ⟨15, _⟩ => ⟨S32768x768, .f32⟩
  | .hbm, ⟨16, _⟩ => ⟨S32768x768, .f32⟩
  | .hbm, ⟨17, _⟩ => ⟨S8x4096x768, .f32⟩
  | .hbm, ⟨18, _⟩ => ⟨S8x4096x768, .f32⟩
  | .hbm, ⟨19, _⟩ => ⟨S8x4096x768, .f32⟩
  | .local _ .vmem, ⟨0, _⟩ => ⟨S1024x768, .f32⟩
  | .local _ .vmem, ⟨1, _⟩ => ⟨S1024x768, .f32⟩
  | .local _ .vmem, ⟨2, _⟩ => ⟨S768x2304, .bf16⟩
  | .local _ .vmem, ⟨3, _⟩ => ⟨S1x768, .f32⟩
  | .local _ .vmem, ⟨4, _⟩ => ⟨S1x768, .f32⟩
  | .local _ .vmem, ⟨5, _⟩ => ⟨S1x768, .f32⟩
  | .local _ .vmem, ⟨6, _⟩ => ⟨S1024x768, .f32⟩
  | .local _ .vmem, ⟨7, _⟩ => ⟨S1024x768, .f32⟩
  | .local _ .vmem, ⟨8, _⟩ => ⟨S1024x768, .f32⟩
  | .local _ .vmem, ⟨9, _⟩ => ⟨S1024x768, .f32⟩
  | .local _ .vmem, ⟨10, _⟩ => ⟨S1024x768, .f32⟩
  | .local _ .vmem, ⟨11, _⟩ => ⟨S1024x768, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8x4096x768_S32768x768 : S8x4096x768.ShapeCasts S32768x768
  concatenates_S768x768_S768x768_S768x768_S2304x768_d0 : Shape.Concatenates [S768x768, S768x768, S768x768] S2304x768 0
  transposes_S2304x768_S768x2304_1_0 : S2304x768.Transposes [1, 0] S768x2304
  bitsLt_bf16_f32 : FTy.bits .bf16 < FTy.bits .f32
  shapeCasts_S768_S1x768 : S768.ShapeCasts S1x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  slices_S1024x2304_o0_0_S1024x768 : S1024x2304.Slices ![0, 0] S1024x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1024x2304_o0_768_S1024x768 : S1024x2304.Slices ![0, 768] S1024x768
  slices_S1024x2304_o0_1536_S1024x768 : S1024x2304.Slices ![0, 1536] S1024x768
  shapeCasts_S32768x768_S8x4096x768 : S32768x768.ShapeCasts S8x4096x768
  dot_S1024x768_S768x2304_S1024x2304_1_0_0_1_n_n_wf : DotDims.WF S1024x768 S768x2304 S1024x2304 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S32768x768.size a
  hwx0_0 : ∀ i : grid0.Coords, EltTy.bits .f32 = 32 ∨ (Rect.block (s := S32768x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x768.size a ≤ S32768x768.size a
  hwx0_5 : ∀ i : grid0.Coords, EltTy.bits .f32 = 32 ∨ (Rect.block (s := S32768x768) S1024x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x768.size a ≤ S32768x768.size a
  hwx0_6 : ∀ i : grid0.Coords, EltTy.bits .f32 = 32 ∨ (Rect.block (s := S32768x768) S1024x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x768.size a ≤ S32768x768.size a
  hwx0_7 : ∀ i : grid0.Coords, EltTy.bits .f32 = 32 ∨ (Rect.block (s := S32768x768) S1024x768.size (cc0_transform_7 i) (hinb0_7 i)).WholeWords (EltTy.packing .f32)

variable [Facts₀]

def dot_S1024x768_S768x2304_S1024x2304_1_0_0_1_n_n : DotDims S1024x768 S768x2304 S1024x2304 where
  lhsContracting := [1]
  rhsContracting := [0]
  lhsNonContracting := [0]
  rhsNonContracting := [1]
  lhsBatch := []
  rhsBatch := []
  wf := dot_S1024x768_S768x2304_S1024x2304_1_0_0_1_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S1024x768.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S1024x768.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_2) S1024x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x4096x768 : Shape := ⟨3, ![8, 4096, 768]⟩
abbrev S768x768 : Shape := ⟨2, ![768, 768]⟩
abbrev S768 : Shape := ⟨1, ![768]⟩
abbrev S2304x768 : Shape := ⟨2, ![2304, 768]⟩
abbrev S2304 : Shape := ⟨1, ![2304]⟩
abbrev S8x4096x2304 : Shape := ⟨3, ![8, 4096, 2304]⟩
abbrev S1x1x2304 : Shape := ⟨3, ![1, 1, 2304]⟩

abbrev nBuf : Space → Nat
  | .hbm => 16
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S2304x768, .f32⟩
  | .hbm, ⟨8, _⟩ => ⟨S2304, .f32⟩
  | .hbm, ⟨9, _⟩ => ⟨S8x4096x2304, .f32⟩
  | .hbm, ⟨10, _⟩ => ⟨S1x1x2304, .f32⟩
  | .hbm, ⟨11, _⟩ => ⟨S8x4096x2304, .f32⟩
  | .hbm, ⟨12, _⟩ => ⟨S8x4096x2304, .f32⟩
  | .hbm, ⟨13, _⟩ => ⟨S8x4096x768, .f32⟩
  | .hbm, ⟨14, _⟩ => ⟨S8x4096x768, .f32⟩
  | .hbm, ⟨15, _⟩ => ⟨S8x4096x768, .f32⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  concatenates_S768x768_S768x768_S768x768_S2304x768_d0 : Shape.Concatenates [S768x768, S768x768, S768x768] S2304x768 0
  concatenates_S768_S768_S768_S2304_d0 : Shape.Concatenates [S768, S768, S768] S2304 0
  bcast_S2304_S1x1x2304_2 : S2304.BroadcastsInDim S1x1x2304 (![2] : Fin 1 → Fin S1x1x2304.rank)
  bcast_S1x1x2304_S8x4096x2304_0_1_2 : S1x1x2304.BroadcastsInDim S8x4096x2304 (![0, 1, 2] : Fin 3 → Fin S8x4096x2304.rank)
  slices_S8x4096x2304_S8x4096x768_0_0_0 : S8x4096x2304.Slices ![0, 0, 0] S8x4096x768
  slices_S8x4096x2304_S8x4096x768_0_0_768 : S8x4096x2304.Slices ![0, 0, 768] S8x4096x768
  slices_S8x4096x2304_S8x4096x768_0_0_1536 : S8x4096x2304.Slices ![0, 0, 1536] S8x4096x768
  dot_S8x4096x768_S2304x768_S8x4096x2304_2_1_01_0_n_n_wf : DotDims.WF S8x4096x768 S2304x768 S8x4096x2304 [2] [1] [0, 1] [0] [] []

variable [Facts₀]

def dot_S8x4096x768_S2304x768_S8x4096x2304_2_1_01_0_n_n : DotDims S8x4096x768 S2304x768 S8x4096x2304 where
  lhsContracting := [2]
  rhsContracting := [1]
  lhsNonContracting := [0, 1]
  rhsNonContracting := [0]
  lhsBatch := []
  rhsBatch := []
  wf := dot_S8x4096x768_S2304x768_S8x4096x2304_2_1_01_0_n_n_wf

class Facts : Prop extends Facts₀ where

variable [Facts]
-- ==== Proof.KernelAround.lean ====
/-
  The kernel as printed: @main read as three stretches — seven host operations (the activations
  flattened to 32768 x 768; the three weight matrices stacked row-wise, transposed to 768 x 2304 and narrowed; each bias
  relaid as one row), the one region, three host operations relaying each 32768 x 768 result to 8 x 4096 x 768.

  Stated for any float instance:
    * what every device buffer holds when the region is entered (the seven host operations applied to the launch memory);
    * @main is the region with those contents, continued by the three relayouts;
    * the relayouts touch only unscoped buffers, allocate nothing, and write none of the region's eight arrays;
    * none of the seven arguments is written on either side of the region, so each is found, and left, as launched.
-/
import proofs.«130201_j19533511262281_2_alg».proof.Proof.Gen.Kernel.Launch
import proofs.«130201_j19533511262281_2_alg».proof.Proof.Gen.Kernel.Skeleton
import proofs.«130201_j19533511262281_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The contents at the region's entry -/

/-- Every device buffer of core `c` after the seven host operations before the region. -/
abbrev entryVal (c : Dev nD) : Valuation τ sig (Elt F) := StableHlo.after (List.flatten [hostOps0]) (fun b => m (c, b))
/-- The same, read at a TensorCore reference. -/
abbrev entryAt (c : Dev nD) (b : Ref sig .tc) : Buf (Elt F) ((c : Thread nD τ).loc b) := entryVal m c (Proc.devRef .tc b)

/-- The host operations before the region allocate nothing, -/
theorem prefix_allocs_nothing : (hostOps0 : List (HloOp τ sig (Elt F))).Forall fun op => op.fresh = ∅ := by
  simp only [List.Forall]; repeat' constructor
/-- nor do those after it. -/
theorem tail_allocs_nothing : (hostOps1 : List (HloOp τ sig (Elt F))).Forall fun op => op.fresh = ∅ := by
  simp only [List.Forall]; repeat' constructor

/-- @main is the region entered at `entryAt`, continued by the three relayouts. -/
theorem main_around (𝒱₀ : Variants) :
    Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_allocs_nothing) main_chain

/-! ## The three relayouts after the region -/

/-- They touch the region's arrays and the buffers that bypass it, nothing else. -/
theorem tail_refs : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_allocs_nothing) op hop

/-- Each writes its own 8 x 4096 x 768 result only, which is none of the region's eight arrays. -/
theorem tail_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.reshape_writes, Finset.mem_singleton] <;> exact StableHlo.devRef_ne_of_ne (by decide)

/-! ## The arguments are written on neither side -/

/-- No host operation before the region writes argument 0. -/
theorem entry_arg0 (c : Dev nD) : entryAt m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No relayout after the region writes argument 0, and it is none of the region's arrays: it ends as launched. -/
theorem exit_arg0 (dats : (p : Fin _) → (c : Dev nD) → Dat τ (Elt F) Unit ℕ (UR sig nD τ) ℕ (cfgs p) c) (c : Dev nD) :
    Pipeline.afterTail₀ cfgs dats 0 (entryVal m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg0 (by exact (by decide : ∀ w, Pipeline.arrRef spec0 w ≠ main_arg0))]
  exact entry_arg0 m c

/-- No host operation before the region writes argument 1. -/
theorem entry_arg1 (c : Dev nD) : entryAt m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No relayout after the region writes argument 1, and it is none of the region's arrays: it ends as launched. -/
theorem exit_arg1 (dats : (p : Fin _) → (c : Dev nD) → Dat τ (Elt F) Unit ℕ (UR sig nD τ) ℕ (cfgs p) c) (c : Dev nD) :
    Pipeline.afterTail₀ cfgs dats 0 (entryVal m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg1 (by exact (by decide : ∀ w, Pipeline.arrRef spec0 w ≠ main_arg1))]
  exact entry_arg1 m c

/-- No host operation before the region writes argument 2. -/
theorem entry_arg2 (c : Dev nD) : entryAt m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No relayout after the region writes argument 2, and it is none of the region's arrays: it ends as launched. -/
theorem exit_arg2 (dats : (p : Fin _) → (c : Dev nD) → Dat τ (Elt F) Unit ℕ (UR sig nD τ) ℕ (cfgs p) c) (c : Dev nD) :
    Pipeline.afterTail₀ cfgs dats 0 (entryVal m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg2 (by exact (by decide : ∀ w, Pipeline.arrRef spec0 w ≠ main_arg2))]
  exact entry_arg2 m c

/-- No host operation before the region writes argument 3. -/
theorem entry_arg3 (c : Dev nD) : entryAt m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No relayout after the region writes argument 3, and it is none of the region's arrays: it ends as launched. -/
theorem exit_arg3 (dats : (p : Fin _) → (c : Dev nD) → Dat τ (Elt F) Unit ℕ (UR sig nD τ) ℕ (cfgs p) c) (c : Dev nD) :
    Pipeline.afterTail₀ cfgs dats 0 (entryVal m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg3 (by exact (by decide : ∀ w, Pipeline.arrRef spec0 w ≠ main_arg3))]
  exact entry_arg3 m c

/-- No host operation before the region writes argument 4. -/
theorem entry_arg4 (c : Dev nD) : entryAt m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No relayout after the region writes argument 4, and it is none of the region's arrays: it ends as launched. -/
theorem exit_arg4 (dats : (p : Fin _) → (c : Dev nD) → Dat τ (Elt F) Unit ℕ (UR sig nD τ) ℕ (cfgs p) c) (c : Dev nD) :
    Pipeline.afterTail₀ cfgs dats 0 (entryVal m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg4 (by exact (by decide : ∀ w, Pipeline.arrRef spec0 w ≠ main_arg4))]
  exact entry_arg4 m c

/-- No host operation before the region writes argument 5. -/
theorem entry_arg5 (c : Dev nD) : entryAt m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No relayout after the region writes argument 5, and it is none of the region's arrays: it ends as launched. -/
theorem exit_arg5 (dats : (p : Fin _) → (c : Dev nD) → Dat τ (Elt F) Unit ℕ (UR sig nD τ) ℕ (cfgs p) c) (c : Dev nD) :
    Pipeline.afterTail₀ cfgs dats 0 (entryVal m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg5 (by exact (by decide : ∀ w, Pipeline.arrRef spec0 w ≠ main_arg5))]
  exact entry_arg5 m c

/-- No host operation before the region writes argument 6. -/
theorem entry_arg6 (c : Dev nD) : entryAt m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No relayout after the region writes argument 6, and it is none of the region's arrays: it ends as launched. -/
theorem exit_arg6 (dats : (p : Fin _) → (c : Dev nD) → Dat τ (Elt F) Unit ℕ (UR sig nD τ) ℕ (cfgs p) c) (c : Dev nD) :
    Pipeline.afterTail₀ cfgs dats 0 (entryVal m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg6 (by exact (by decide : ∀ w, Pipeline.arrRef spec0 w ≠ main_arg6))]
  exact entry_arg6 m c

end Cert.Kernel.Fr

end
-- ==== Proof.KernelBody.lean ====
/-
  The kernel as printed: the region's body at one grid point, the proof data of the pipeline, and the run.

  At grid point `t` the pipeline hands the body one 1024 x 768 tile of the flattened activations (rows 1024 t to
  1024 t + 1023), the whole 768 x 2304 stacked weight, and the three bias rows; the body multiplies the tile by the
  weight into 1024 x 2304, cuts that into three column bands of width 768, adds the matching bias row to each, and stores
  each band whole into one of three 1024 x 768 output buffers. Each store covers its buffer, so what an output buffer
  holds after the body is that one store's value, whatever it held before (the body also loads each output buffer just
  before storing into it; the loaded value is used nowhere).

  Stated for any float instance: the body's triple on whole staging buffers; the pipeline's proof data (inputs keep
  their blocks, outputs hold the banded product plus bias); every weakly fair run of @main terminates with each array
  of the region at what the proof data compute and every other unscoped buffer as the tail leaves it; and the seven
  arguments end as launched.
-/
import proofs.«130201_j19533511262281_2_alg».proof.Proof.KernelAround

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- Input window 0's current staging buffer holds its block at every point, whether the pipeline fetched it there or the
    block index has not moved since it did — for any proof data over the entry contents whose body leaves the block in place. -/
theorem held0 {c : Dev nD} (dat : Dat τ (Elt F) Unit ℕ (UR sig nD τ) ℕ cfg0 c) (hA : dat.A 0 = entryAt m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or the
    block index has not moved since it did — for any proof data over the entry contents whose body leaves the block in place. -/
theorem held1 {c : Dev nD} (dat : Dat τ (Elt F) Unit ℕ (UR sig nD τ) ℕ cfg0 c) (hA : dat.A 1 = entryAt m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or the
    block index has not moved since it did — for any proof data over the entry contents whose body leaves the block in place. -/
theorem held2 {c : Dev nD} (dat : Dat τ (Elt F) Unit ℕ (UR sig nD τ) ℕ cfg0 c) (hA : dat.A 2 = entryAt m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or the
    block index has not moved since it did — for any proof data over the entry contents whose body leaves the block in place. -/
theorem held3 {c : Dev nD} (dat : Dat τ (Elt F) Unit ℕ (UR sig nD τ) ℕ cfg0 c) (hA : dat.A 3 = entryAt m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there or the
    block index has not moved since it did — for any proof data over the entry contents whose body leaves the block in place. -/
theorem held4 {c : Dev nD} (dat : Dat τ (Elt F) Unit ℕ (UR sig nD τ) ℕ cfg0 c) (hA : dat.A 4 = entryAt m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run ending with every buffer outside the region's arrays as the tail leaves it: each argument is such a
    buffer, and the tail leaves it as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entryVal m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (exit_arg0 m dats c),
     ((h c).2 main_arg1 (Pipeline.mem_restRefs_of main_arg1 (by decide) (by decide))).trans (exit_arg1 m dats c),
     ((h c).2 main_arg2 (Pipeline.mem_restRefs_of main_arg2 (by decide) (by decide))).trans (exit_arg2 m dats c),
     ((h c).2 main_arg3 (Pipeline.mem_restRefs_of main_arg3 (by decide) (by decide))).trans (exit_arg3 m dats c),
     ((h c).2 main_arg4 (Pipeline.mem_restRefs_of main_arg4 (by decide) (by decide))).trans (exit_arg4 m dats c),
     ((h c).2 main_arg5 (Pipeline.mem_restRefs_of main_arg5 (by decide) (by decide))).trans (exit_arg5 m dats c),
     ((h c).2 main_arg6 (Pipeline.mem_restRefs_of main_arg6 (by decide) (by decide))).trans (exit_arg6 m dats c)⟩) h

/-! ## The body's accesses: every one is a whole buffer -/

abbrev whole1024x768 : Rect S1024x768 := Rect.unit (s := S1024x768) ![0, 0] S1024x768.size inb_S1024x768_S1024x768_0_0
abbrev whole768x2304 : Rect S768x2304 := Rect.unit (s := S768x2304) ![0, 0] S768x2304.size inb_S768x2304_S768x2304_0_0
abbrev whole1x768 : Rect S1x768 := Rect.unit (s := S1x768) ![0, 0] S1x768.size inb_S1x768_S1x768_0_0

/-! ## What the body leaves in each output buffer -/

/-- The first band of the product plus the first bias row, as the one store into the first output buffer leaves it. -/
def bandQ (x : Vec F S1024x768 .f32) (w : Vec F S768x2304 .bf16) (b : Vec F S1x768 .f32) : Vec F S1024x768 .f32 :=
  View.canon [⟨whole1024x768, k0_pay2 (View.ld x whole1024x768) (View.ld w whole768x2304) (View.ld b whole1x768)⟩]
/-- The second band plus the second bias row. -/
def bandK (x : Vec F S1024x768 .f32) (w : Vec F S768x2304 .bf16) (b : Vec F S1x768 .f32) : Vec F S1024x768 .f32 :=
  View.canon [⟨whole1024x768, k0_pay3 (View.ld x whole1024x768) (View.ld w whole768x2304) (View.ld b whole1x768)⟩]
/-- The third band plus the third bias row. -/
def bandV (x : Vec F S1024x768 .f32) (w : Vec F S768x2304 .bf16) (b : Vec F S1x768 .f32) : Vec F S1024x768 .f32 :=
  View.canon [⟨whole1024x768, k0_pay4 (View.ld x whole1024x768) (View.ld w whole768x2304) (View.ld b whole1x768)⟩]

/-- One store through the whole-buffer rectangle covers the buffer. -/
theorem whole_covers (p : Vec F S1024x768 .f32) (y : S1024x768.Idx) :
    ∃ pc ∈ ([⟨whole1024x768, p⟩] : List (View.Piece (Elt F) S1024x768 .f32)), y ∈ pc.1.set :=
  View.cover_of_tiled [⟨whole1024x768, p⟩] S1024x768.size (by rfl) y

/-! ## The body's triple -/

set_option maxHeartbeats 1000000 in
/-- On whole staging buffers — the five inputs' at contents `x`, `w`, `bq`, `bk`, `bv`, the three outputs' at anything —
    the body runs to its continuation with the inputs' as they were and the outputs' at the three banded results. -/
theorem sound_kernel (c : Dev nD) (E : Set ℕ) (i : grid0.Coords)
    (a1 : Memref sig .tc .vmem S1024x768 .f32) (h1 : a1.IsWhole) (a2 : Memref sig .tc .vmem S768x2304 .bf16) (h2 : a2.IsWhole)
    (a3 : Memref sig .tc .vmem S1x768 .f32) (h3 : a3.IsWhole) (a4 : Memref sig .tc .vmem S1x768 .f32) (h4 : a4.IsWhole)
    (a5 : Memref sig .tc .vmem S1x768 .f32) (h5 : a5.IsWhole) (a6 : Memref sig .tc .vmem S1024x768 .f32) (h6 : a6.IsWhole)
    (a7 : Memref sig .tc .vmem S1024x768 .f32) (h7 : a7.IsWhole) (a8 : Memref sig .tc .vmem S1024x768 .f32) (h8 : a8.IsWhole)
    (x : Vec F S1024x768 .f32) (w : Vec F S768x2304 .bf16) (bq bk bv : Vec F S1x768 .f32) (K : PUnit → sProp 𝕄) :
    iprop(owns (c : Thread nD τ) a1 fullShare x ∗ owns (c : Thread nD τ) a2 fullShare w ∗ owns (c : Thread nD τ) a3 fullShare bq
        ∗ owns (c : Thread nD τ) a4 fullShare bk ∗ owns (c : Thread nD τ) a5 fullShare bv
        ∗ (∃ d, owns (c : Thread nD τ) a6 fullShare d) ∗ (∃ d, owns (c : Thread nD τ) a7 fullShare d) ∗ (∃ d, owns (c : Thread nD τ) a8 fullShare d)
        ∗ (iprop(owns (c : Thread nD τ) a1 fullShare x ∗ owns (c : Thread nD τ) a2 fullShare w ∗ owns (c : Thread nD τ) a3 fullShare bq
            ∗ owns (c : Thread nD τ) a4 fullShare bk ∗ owns (c : Thread nD τ) a5 fullShare bv
            ∗ owns (c : Thread nD τ) a6 fullShare (bandQ x w bq) ∗ owns (c : Thread nD τ) a7 fullShare (bandK x w bk)
            ∗ owns (c : Thread nD τ) a8 fullShare (bandV x w bv)) -∗ K ⟨⟩))
      ⊢ wp frame (wpE (defs₀ (F := F)) Variants.none c none) E (cc0__qkv_kernel i a1 h1 a2 h2 a3 h3 a4 h4 a5 h5 a6 h6 a7 h7 a8 h8) K := by
  simp only [cc0__qkv_kernel_eq_skeleton]; unfold cc0__qkv_kernel_skel
  unfold owns
  iintro ⟨⟨%f1, %e1, H1⟩, ⟨%f2, %e2, H2⟩, ⟨%f3, %e3, H3⟩, ⟨%f4, %e4, H4⟩, ⟨%f5, %e5, H5⟩,
    ⟨%d6, %f6, -, H6⟩, ⟨%d7, %f7, -, H7⟩, ⟨%d8, %f8, -, H8⟩, Hk⟩
  subst e1; subst e2; subst e3; subst e4; subst e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (whole_covers _)
  isplitl [H7]
  · iexists _; isplitr
    swap; · iexact H7
    ipureintro
    exact View.read_writes_eq_canon _ _ _ (whole_covers _)
  iexists _; isplitr
  swap; · iexact H8
  ipureintro
  exact View.read_writes_eq_canon _ _ _ (whole_covers _)

/-! ## The pipeline's proof data -/

/-- On core `c`: the arrays as the region finds them; after the body at point `t` each input's buffer at its block and
    each output's at its banded result of the input blocks; the invariant the scoped rest and the generator register,
    untouched; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => bandQ (iblk m c 0 t) (iblk m c 1 t) (iblk m c 2 t)
    | ⟨6, _⟩ => bandK (iblk m c 0 t) (iblk m c 1 t) (iblk m c 3 t)
    | ⟨7, _⟩ => bandV (iblk m c 0 t) (iblk m c 1 t) (iblk m c 4 t)
  Φ _ := Pipeline.ΦA spec0 c
  q _ := fullShare
  owed _ := 0

/-- The proof data's arrays are the entry contents (projected, never unfolded). -/
theorem A_eq (c : Dev nD) (w : Fin cfg0.W) : (dats m 0 c).A w = entryAt m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = bandQ (iblk m c 0 t) (iblk m c 1 t) (iblk m c 2 t) := by dsimp only [dats]
theorem after6 (c : Dev nD) (t : Fin cfg0.N) : (dats m 0 c).after 6 t = bandK (iblk m c 0 t) (iblk m c 1 t) (iblk m c 3 t) := by dsimp only [dats]
theorem after7 (c : Dev nD) (t : Fin cfg0.N) : (dats m 0 c).after 7 t = bandV (iblk m c 0 t) (iblk m c 1 t) (iblk m c 4 t) := by dsimp only [dats]

theorem before0 (c : Dev nD) (t : Fin cfg0.N) (d) : (dats m 0 c).before 0 t d = iblk m c 0 t := held0 m (dats m 0 c) (A_eq m c 0) (after0 m c) t d
theorem before1 (c : Dev nD) (t : Fin cfg0.N) (d) : (dats m 0 c).before 1 t d = iblk m c 1 t := held1 m (dats m 0 c) (A_eq m c 1) (after1 m c) t d
theorem before2 (c : Dev nD) (t : Fin cfg0.N) (d) : (dats m 0 c).before 2 t d = iblk m c 2 t := held2 m (dats m 0 c) (A_eq m c 2) (after2 m c) t d
theorem before3 (c : Dev nD) (t : Fin cfg0.N) (d) : (dats m 0 c).before 3 t d = iblk m c 3 t := held3 m (dats m 0 c) (A_eq m c 3) (after3 m c) t d
theorem before4 (c : Dev nD) (t : Fin cfg0.N) (d) : (dats m 0 c).before 4 t d = iblk m c 4 t := held4 m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- What the body owes the pipeline, at every grid point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, each array of the region at what
    the proof data determine and every other unscoped buffer as the three relayouts leave it. -/
theorem run_main : θ_run defs (onTc (τ := τ) (main (F := F))) (s₀ m ρ)
    (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := tail_refs) (hfresh := tail_fresh) (hkeep := tail_keeps_arrays)
    (hmain := main_around m Variants.none) (hA := A_eq m) (hΦ := fun _ _ => rfl)

/-- The program terminates, faults nowhere, and leaves its seven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.Fr

end
-- ==== Proof.IdealAround.lean ====
/-
  The idealized kernel: @main read as three stretches — seven host operations (the activations
  flattened to 32768 x 768; the three weight matrices stacked row-wise, transposed to 768 x 2304 and narrowed; each bias
  relaid as one row), the one region, three host operations relaying each 32768 x 768 result to 8 x 4096 x 768.

  Stated for any float instance:
    * what every device buffer holds when the region is entered (the seven host operations applied to the launch memory);
    * @main is the region with those contents, continued by the three relayouts;
    * the relayouts touch only unscoped buffers, allocate nothing, and write none of the region's eight arrays;
    * none of the seven arguments is written on either side of the region, so each is found, and left, as launched.
-/
import proofs.«130201_j19533511262281_2_alg».proof.Proof.Gen.KernelIdeal.Launch
import proofs.«130201_j19533511262281_2_alg».proof.Proof.Gen.KernelIdeal.Skeleton
import proofs.«130201_j19533511262281_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The contents at the region's entry -/

/-- Every device buffer of core `c` after the seven host operations before the region. -/
abbrev entryVal (c : Dev nD) : Valuation τ sig (Elt F) := StableHlo.after (List.flatten [hostOps0]) (fun b => m (c, b))
/-- The same, read at a TensorCore reference. -/
abbrev entryAt (c : Dev nD) (b : Ref sig .tc) : Buf (Elt F) ((c : Thread nD τ).loc b) := entryVal m c (Proc.devRef .tc b)

/-- The host operations before the region allocate nothing, -/
theorem prefix_allocs_nothing : (hostOps0 : List (HloOp τ sig (Elt F))).Forall fun op => op.fresh = ∅ := by
  simp only [List.Forall]; repeat' constructor
/-- nor do those after it. -/
theorem tail_allocs_nothing : (hostOps1 : List (HloOp τ sig (Elt F))).Forall fun op => op.fresh = ∅ := by
  simp only [List.Forall]; repeat' constructor

/-- @main is the region entered at `entryAt`, continued by the three relayouts. -/
theorem main_around (𝒱₀ : Variants) :
    Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_allocs_nothing) main_chain

/-! ## The three relayouts after the region -/

/-- They touch the region's arrays and the buffers that bypass it, nothing else. -/
theorem tail_refs : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_allocs_nothing) op hop

/-- Each writes its own 8 x 4096 x 768 result only, which is none of the region's eight arrays. -/
theorem tail_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.reshape_writes, Finset.mem_singleton] <;> exact StableHlo.devRef_ne_of_ne (by decide)

/-! ## The arguments are written on neither side -/

/-- No host operation before the region writes argument 0. -/
theorem entry_arg0 (c : Dev nD) : entryAt m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No relayout after the region writes argument 0, and it is none of the region's arrays: it ends as launched. -/
theorem exit_arg0 (dats : (p : Fin _) → (c : Dev nD) → Dat τ (Elt F) Unit ℕ (UR sig nD τ) ℕ (cfgs p) c) (c : Dev nD) :
    Pipeline.afterTail₀ cfgs dats 0 (entryVal m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg0 (by exact (by decide : ∀ w, Pipeline.arrRef spec0 w ≠ main_arg0))]
  exact entry_arg0 m c

/-- No host operation before the region writes argument 1. -/
theorem entry_arg1 (c : Dev nD) : entryAt m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No relayout after the region writes argument 1, and it is none of the region's arrays: it ends as launched. -/
theorem exit_arg1 (dats : (p : Fin _) → (c : Dev nD) → Dat τ (Elt F) Unit ℕ (UR sig nD τ) ℕ (cfgs p) c) (c : Dev nD) :
    Pipeline.afterTail₀ cfgs dats 0 (entryVal m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg1 (by exact (by decide : ∀ w, Pipeline.arrRef spec0 w ≠ main_arg1))]
  exact entry_arg1 m c

/-- No host operation before the region writes argument 2. -/
theorem entry_arg2 (c : Dev nD) : entryAt m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No relayout after the region writes argument 2, and it is none of the region's arrays: it ends as launched. -/
theorem exit_arg2 (dats : (p : Fin _) → (c : Dev nD) → Dat τ (Elt F) Unit ℕ (UR sig nD τ) ℕ (cfgs p) c) (c : Dev nD) :
    Pipeline.afterTail₀ cfgs dats 0 (entryVal m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg2 (by exact (by decide : ∀ w, Pipeline.arrRef spec0 w ≠ main_arg2))]
  exact entry_arg2 m c

/-- No host operation before the region writes argument 3. -/
theorem entry_arg3 (c : Dev nD) : entryAt m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No relayout after the region writes argument 3, and it is none of the region's arrays: it ends as launched. -/
theorem exit_arg3 (dats : (p : Fin _) → (c : Dev nD) → Dat τ (Elt F) Unit ℕ (UR sig nD τ) ℕ (cfgs p) c) (c : Dev nD) :
    Pipeline.afterTail₀ cfgs dats 0 (entryVal m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg3 (by exact (by decide : ∀ w, Pipeline.arrRef spec0 w ≠ main_arg3))]
  exact entry_arg3 m c

/-- No host operation before the region writes argument 4. -/
theorem entry_arg4 (c : Dev nD) : entryAt m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No relayout after the region writes argument 4, and it is none of the region's arrays: it ends as launched. -/
theorem exit_arg4 (dats : (p : Fin _) → (c : Dev nD) → Dat τ (Elt F) Unit ℕ (UR sig nD τ) ℕ (cfgs p) c) (c : Dev nD) :
    Pipeline.afterTail₀ cfgs dats 0 (entryVal m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg4 (by exact (by decide : ∀ w, Pipeline.arrRef spec0 w ≠ main_arg4))]
  exact entry_arg4 m c

/-- No host operation before the region writes argument 5. -/
theorem entry_arg5 (c : Dev nD) : entryAt m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No relayout after the region writes argument 5, and it is none of the region's arrays: it ends as launched. -/
theorem exit_arg5 (dats : (p : Fin _) → (c : Dev nD) → Dat τ (Elt F) Unit ℕ (UR sig nD τ) ℕ (cfgs p) c) (c : Dev nD) :
    Pipeline.afterTail₀ cfgs dats 0 (entryVal m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg5 (by exact (by decide : ∀ w, Pipeline.arrRef spec0 w ≠ main_arg5))]
  exact entry_arg5 m c

/-- No host operation before the region writes argument 6. -/
theorem entry_arg6 (c : Dev nD) : entryAt m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide)))

/-- No relayout after the region writes argument 6, and it is none of the region's arrays: it ends as launched. -/
theorem exit_arg6 (dats : (p : Fin _) → (c : Dev nD) → Dat τ (Elt F) Unit ℕ (UR sig nD τ) ℕ (cfgs p) c) (c : Dev nD) :
    Pipeline.afterTail₀ cfgs dats 0 (entryVal m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg6 (by exact (by decide : ∀ w, Pipeline.arrRef spec0 w ≠ main_arg6))]
  exact entry_arg6 m c

end Cert.KernelIdeal.Fr

end
-- ==== Proof.IdealBody.lean ====
/-
  The idealized kernel: the region's body at one grid point, the proof data of the pipeline, and the run.

  At grid point `t` the pipeline hands the body one 1024 x 768 tile of the flattened activations (rows 1024 t to
  1024 t + 1023), the whole 768 x 2304 stacked weight, and the three bias rows; the body multiplies the tile by the
  weight into 1024 x 2304, cuts that into three column bands of width 768, adds the matching bias row to each, and stores
  each band whole into one of three 1024 x 768 output buffers. Each store covers its buffer, so what an output buffer
  holds after the body is that one store's value, whatever it held before (the body also loads each output buffer just
  before storing into it; the loaded value is used nowhere).

  Stated for any float instance: the body's triple on whole staging buffers; the pipeline's proof data (inputs keep
  their blocks, outputs hold the banded product plus bias); every weakly fair run of @main terminates with each array
  of the region at what the proof data compute and every other unscoped buffer as the tail leaves it; and the seven
  arguments end as launched.
-/
import proofs.«130201_j19533511262281_2_alg».proof.Proof.IdealAround

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- Input window 0's current staging buffer holds its block at every point, whether the pipeline fetched it there or the
    block index has not moved since it did — for any proof data over the entry contents whose body leaves the block in place. -/
theorem held0 {c : Dev nD} (dat : Dat τ (Elt F) Unit ℕ (UR sig nD τ) ℕ cfg0 c) (hA : dat.A 0 = entryAt m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or the
    block index has not moved since it did — for any proof data over the entry contents whose body leaves the block in place. -/
theorem held1 {c : Dev nD} (dat : Dat τ (Elt F) Unit ℕ (UR sig nD τ) ℕ cfg0 c) (hA : dat.A 1 = entryAt m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or the
    block index has not moved since it did — for any proof data over the entry contents whose body leaves the block in place. -/
theorem held2 {c : Dev nD} (dat : Dat τ (Elt F) Unit ℕ (UR sig nD τ) ℕ cfg0 c) (hA : dat.A 2 = entryAt m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or the
    block index has not moved since it did — for any proof data over the entry contents whose body leaves the block in place. -/
theorem held3 {c : Dev nD} (dat : Dat τ (Elt F) Unit ℕ (UR sig nD τ) ℕ cfg0 c) (hA : dat.A 3 = entryAt m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there or the
    block index has not moved since it did — for any proof data over the entry contents whose body leaves the block in place. -/
theorem held4 {c : Dev nD} (dat : Dat τ (Elt F) Unit ℕ (UR sig nD τ) ℕ cfg0 c) (hA : dat.A 4 = entryAt m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run ending with every buffer outside the region's arrays as the tail leaves it: each argument is such a
    buffer, and the tail leaves it as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entryVal m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (exit_arg0 m dats c),
     ((h c).2 main_arg1 (Pipeline.mem_restRefs_of main_arg1 (by decide) (by decide))).trans (exit_arg1 m dats c),
     ((h c).2 main_arg2 (Pipeline.mem_restRefs_of main_arg2 (by decide) (by decide))).trans (exit_arg2 m dats c),
     ((h c).2 main_arg3 (Pipeline.mem_restRefs_of main_arg3 (by decide) (by decide))).trans (exit_arg3 m dats c),
     ((h c).2 main_arg4 (Pipeline.mem_restRefs_of main_arg4 (by decide) (by decide))).trans (exit_arg4 m dats c),
     ((h c).2 main_arg5 (Pipeline.mem_restRefs_of main_arg5 (by decide) (by decide))).trans (exit_arg5 m dats c),
     ((h c).2 main_arg6 (Pipeline.mem_restRefs_of main_arg6 (by decide) (by decide))).trans (exit_arg6 m dats c)⟩) h

/-! ## The body's accesses: every one is a whole buffer -/

abbrev whole1024x768 : Rect S1024x768 := Rect.unit (s := S1024x768) ![0, 0] S1024x768.size inb_S1024x768_S1024x768_0_0
abbrev whole768x2304 : Rect S768x2304 := Rect.unit (s := S768x2304) ![0, 0] S768x2304.size inb_S768x2304_S768x2304_0_0
abbrev whole1x768 : Rect S1x768 := Rect.unit (s := S1x768) ![0, 0] S1x768.size inb_S1x768_S1x768_0_0

/-! ## What the body leaves in each output buffer -/

/-- The first band of the product plus the first bias row, as the one store into the first output buffer leaves it. -/
def bandQ (x : Vec F S1024x768 .f32) (w : Vec F S768x2304 .bf16) (b : Vec F S1x768 .f32) : Vec F S1024x768 .f32 :=
  View.canon [⟨whole1024x768, k0_pay2 (View.ld x whole1024x768) (View.ld w whole768x2304) (View.ld b whole1x768)⟩]
/-- The second band plus the second bias row. -/
def bandK (x : Vec F S1024x768 .f32) (w : Vec F S768x2304 .bf16) (b : Vec F S1x768 .f32) : Vec F S1024x768 .f32 :=
  View.canon [⟨whole1024x768, k0_pay3 (View.ld x whole1024x768) (View.ld w whole768x2304) (View.ld b whole1x768)⟩]
/-- The third band plus the third bias row. -/
def bandV (x : Vec F S1024x768 .f32) (w : Vec F S768x2304 .bf16) (b : Vec F S1x768 .f32) : Vec F S1024x768 .f32 :=
  View.canon [⟨whole1024x768, k0_pay4 (View.ld x whole1024x768) (View.ld w whole768x2304) (View.ld b whole1x768)⟩]

/-- One store through the whole-buffer rectangle covers the buffer. -/
theorem whole_covers (p : Vec F S1024x768 .f32) (y : S1024x768.Idx) :
    ∃ pc ∈ ([⟨whole1024x768, p⟩] : List (View.Piece (Elt F) S1024x768 .f32)), y ∈ pc.1.set :=
  View.cover_of_tiled [⟨whole1024x768, p⟩] S1024x768.size (by rfl) y

/-! ## The body's triple -/

set_option maxHeartbeats 1000000 in
/-- On whole staging buffers — the five inputs' at contents `x`, `w`, `bq`, `bk`, `bv`, the three outputs' at anything —
    the body runs to its continuation with the inputs' as they were and the outputs' at the three banded results. -/
theorem sound_kernel (c : Dev nD) (E : Set ℕ) (i : grid0.Coords)
    (a1 : Memref sig .tc .vmem S1024x768 .f32) (h1 : a1.IsWhole) (a2 : Memref sig .tc .vmem S768x2304 .bf16) (h2 : a2.IsWhole)
    (a3 : Memref sig .tc .vmem S1x768 .f32) (h3 : a3.IsWhole) (a4 : Memref sig .tc .vmem S1x768 .f32) (h4 : a4.IsWhole)
    (a5 : Memref sig .tc .vmem S1x768 .f32) (h5 : a5.IsWhole) (a6 : Memref sig .tc .vmem S1024x768 .f32) (h6 : a6.IsWhole)
    (a7 : Memref sig .tc .vmem S1024x768 .f32) (h7 : a7.IsWhole) (a8 : Memref sig .tc .vmem S1024x768 .f32) (h8 : a8.IsWhole)
    (x : Vec F S1024x768 .f32) (w : Vec F S768x2304 .bf16) (bq bk bv : Vec F S1x768 .f32) (K : PUnit → sProp 𝕄) :
    iprop(owns (c : Thread nD τ) a1 fullShare x ∗ owns (c : Thread nD τ) a2 fullShare w ∗ owns (c : Thread nD τ) a3 fullShare bq
        ∗ owns (c : Thread nD τ) a4 fullShare bk ∗ owns (c : Thread nD τ) a5 fullShare bv
        ∗ (∃ d, owns (c : Thread nD τ) a6 fullShare d) ∗ (∃ d, owns (c : Thread nD τ) a7 fullShare d) ∗ (∃ d, owns (c : Thread nD τ) a8 fullShare d)
        ∗ (iprop(owns (c : Thread nD τ) a1 fullShare x ∗ owns (c : Thread nD τ) a2 fullShare w ∗ owns (c : Thread nD τ) a3 fullShare bq
            ∗ owns (c : Thread nD τ) a4 fullShare bk ∗ owns (c : Thread nD τ) a5 fullShare bv
            ∗ owns (c : Thread nD τ) a6 fullShare (bandQ x w bq) ∗ owns (c : Thread nD τ) a7 fullShare (bandK x w bk)
            ∗ owns (c : Thread nD τ) a8 fullShare (bandV x w bv)) -∗ K ⟨⟩))
      ⊢ wp frame (wpE (defs₀ (F := F)) Variants.none c none) E (cc0__qkv_kernel i a1 h1 a2 h2 a3 h3 a4 h4 a5 h5 a6 h6 a7 h7 a8 h8) K := by
  simp only [cc0__qkv_kernel_eq_skeleton]; unfold cc0__qkv_kernel_skel
  unfold owns
  iintro ⟨⟨%f1, %e1, H1⟩, ⟨%f2, %e2, H2⟩, ⟨%f3, %e3, H3⟩, ⟨%f4, %e4, H4⟩, ⟨%f5, %e5, H5⟩,
    ⟨%d6, %f6, -, H6⟩, ⟨%d7, %f7, -, H7⟩, ⟨%d8, %f8, -, H8⟩, Hk⟩
  subst e1; subst e2; subst e3; subst e4; subst e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (whole_covers _)
  isplitl [H7]
  · iexists _; isplitr
    swap; · iexact H7
    ipureintro
    exact View.read_writes_eq_canon _ _ _ (whole_covers _)
  iexists _; isplitr
  swap; · iexact H8
  ipureintro
  exact View.read_writes_eq_canon _ _ _ (whole_covers _)

/-! ## The pipeline's proof data -/

/-- On core `c`: the arrays as the region finds them; after the body at point `t` each input's buffer at its block and
    each output's at its banded result of the input blocks; the invariant the scoped rest and the generator register,
    untouched; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => bandQ (iblk m c 0 t) (iblk m c 1 t) (iblk m c 2 t)
    | ⟨6, _⟩ => bandK (iblk m c 0 t) (iblk m c 1 t) (iblk m c 3 t)
    | ⟨7, _⟩ => bandV (iblk m c 0 t) (iblk m c 1 t) (iblk m c 4 t)
  Φ _ := Pipeline.ΦA spec0 c
  q _ := fullShare
  owed _ := 0

/-- The proof data's arrays are the entry contents (projected, never unfolded). -/
theorem A_eq (c : Dev nD) (w : Fin cfg0.W) : (dats m 0 c).A w = entryAt m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = bandQ (iblk m c 0 t) (iblk m c 1 t) (iblk m c 2 t) := by dsimp only [dats]
theorem after6 (c : Dev nD) (t : Fin cfg0.N) : (dats m 0 c).after 6 t = bandK (iblk m c 0 t) (iblk m c 1 t) (iblk m c 3 t) := by dsimp only [dats]
theorem after7 (c : Dev nD) (t : Fin cfg0.N) : (dats m 0 c).after 7 t = bandV (iblk m c 0 t) (iblk m c 1 t) (iblk m c 4 t) := by dsimp only [dats]

theorem before0 (c : Dev nD) (t : Fin cfg0.N) (d) : (dats m 0 c).before 0 t d = iblk m c 0 t := held0 m (dats m 0 c) (A_eq m c 0) (after0 m c) t d
theorem before1 (c : Dev nD) (t : Fin cfg0.N) (d) : (dats m 0 c).before 1 t d = iblk m c 1 t := held1 m (dats m 0 c) (A_eq m c 1) (after1 m c) t d
theorem before2 (c : Dev nD) (t : Fin cfg0.N) (d) : (dats m 0 c).before 2 t d = iblk m c 2 t := held2 m (dats m 0 c) (A_eq m c 2) (after2 m c) t d
theorem before3 (c : Dev nD) (t : Fin cfg0.N) (d) : (dats m 0 c).before 3 t d = iblk m c 3 t := held3 m (dats m 0 c) (A_eq m c 3) (after3 m c) t d
theorem before4 (c : Dev nD) (t : Fin cfg0.N) (d) : (dats m 0 c).before 4 t d = iblk m c 4 t := held4 m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- What the body owes the pipeline, at every grid point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, each array of the region at what
    the proof data determine and every other unscoped buffer as the three relayouts leave it. -/
theorem run_main : θ_run defs (onTc (τ := τ) (main (F := F))) (s₀ m ρ)
    (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := tail_refs) (hfresh := tail_fresh) (hkeep := tail_keeps_arrays)
    (hmain := main_around m Variants.none) (hA := A_eq m) (hΦ := fun _ _ => rfl)

/-- The program terminates, faults nowhere, and leaves its seven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.Fr

end
-- ==== Proof.IdealPay.lean ====
/-
  The idealized kernel's body arithmetic read at an index.

  For a 1024 x 768 tile `x`, the 768 x 2304 weight `w` and a bias row `b` (1 x 768), each of the three stored values is,
  at row `r` and column `o` of the tile,

      sum over k < 768 of  x[r, k] * w[k, off + o]   +   b[0, o],        off = 0, 768, 1536:

  the matrix product into a zero accumulator is the plain sum over the one contracted axis; narrowing the tile to bf16 is
  the identity on extended reals; each band is a column slice of the product from `off`; the bias row is broadcast down
  the 1024 rows.
-/
import proofs.«130201_j19533511262281_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-! ## The operand indices of the product at output index `(r, q)` and contraction index `k` are `(r, k)` and `(k, q)` -/

theorem lhs_row (i : S1024x2304.Idx) (q : dot_S1024x768_S768x2304_S1024x2304_1_0_0_1_n_n.contr.Idx) : (dot_S1024x768_S768x2304_S1024x2304_1_0_0_1_n_n.lhsIdx i q 0).val = (i 0).val := by
  unfold DotDims.lhsIdx
  rw [dif_neg (show ¬(0 : Fin S1024x768.rank) ∈ dot_S1024x768_S768x2304_S1024x2304_1_0_0_1_n_n.lhsBatch by decide),
    dif_pos (show (0 : Fin S1024x768.rank) ∈ dot_S1024x768_S768x2304_S1024x2304_1_0_0_1_n_n.lhsNonContracting by decide)]
  rfl
theorem lhs_col (i : S1024x2304.Idx) (q : dot_S1024x768_S768x2304_S1024x2304_1_0_0_1_n_n.contr.Idx) : (dot_S1024x768_S768x2304_S1024x2304_1_0_0_1_n_n.lhsIdx i q 1).val = (q ⟨0, by decide⟩).val :=
  dot_S1024x768_S768x2304_S1024x2304_1_0_0_1_n_n.lhsIdx_val_of_single rfl i q
theorem rhs_row (i : S1024x2304.Idx) (q : dot_S1024x768_S768x2304_S1024x2304_1_0_0_1_n_n.contr.Idx) : (dot_S1024x768_S768x2304_S1024x2304_1_0_0_1_n_n.rhsIdx i q 0).val = (q ⟨0, by decide⟩).val :=
  dot_S1024x768_S768x2304_S1024x2304_1_0_0_1_n_n.rhsIdx_val_of_single rfl i q
theorem rhs_col (i : S1024x2304.Idx) (q : dot_S1024x768_S768x2304_S1024x2304_1_0_0_1_n_n.contr.Idx) : (dot_S1024x768_S768x2304_S1024x2304_1_0_0_1_n_n.rhsIdx i q 1).val = (i 1).val := by
  unfold DotDims.rhsIdx
  rw [dif_neg (show ¬(1 : Fin S768x2304.rank) ∈ dot_S1024x768_S768x2304_S1024x2304_1_0_0_1_n_n.rhsBatch by decide),
    dif_pos (show (1 : Fin S768x2304.rank) ∈ dot_S1024x768_S768x2304_S1024x2304_1_0_0_1_n_n.rhsNonContracting by decide)]
  rfl

/-- The product of the tile by the weight, at row `r` and column `q`. -/
theorem product_at (x : FVec Ideal S1024x768 .f32) (w : FVec Ideal S768x2304 .bf16) (r : Fin 1024) (q : Fin 2304) :
    k0_pay1 (F := Ideal) x w (ix2 r q) = ∑ k : Fin 768, x (ix2 r k) * w (ix2 k q) := by
  unfold k0_pay1
  rw [shapeCast_self, shapeCast_self]
  refine (Ideal.matmul_constant_zero_apply dot_S1024x768_S768x2304_S1024x2304_1_0_0_1_n_n none _ _ (ix2 r q)).trans ?_
  rw [← Equiv.sum_comp (contrEquiv1 dot_S1024x768_S768x2304_S1024x2304_1_0_0_1_n_n 768 rfl rfl).symm]
  refine Finset.sum_congr rfl fun k _ => ?_
  have hk := contrEquiv1_symm_val dot_S1024x768_S768x2304_S1024x2304_1_0_0_1_n_n 768 rfl rfl k
  have el : dot_S1024x768_S768x2304_S1024x2304_1_0_0_1_n_n.lhsIdx (ix2 r q) ((contrEquiv1 dot_S1024x768_S768x2304_S1024x2304_1_0_0_1_n_n 768 rfl rfl).symm k) = ix2 r k := funext fun a => Fin.ext (by
    match a with
    | ⟨0, _⟩ => exact lhs_row _ _
    | ⟨1, _⟩ => exact (lhs_col _ _).trans hk)
  have er : dot_S1024x768_S768x2304_S1024x2304_1_0_0_1_n_n.rhsIdx (ix2 r q) ((contrEquiv1 dot_S1024x768_S768x2304_S1024x2304_1_0_0_1_n_n 768 rfl rfl).symm k) = ix2 k q := funext fun a => Fin.ext (by
    match a with
    | ⟨0, _⟩ => exact (rhs_row _ _).trans hk
    | ⟨1, _⟩ => exact rhs_col _ _)
  rw [el, er]
  rfl

/-- The bias row, relaid as itself and broadcast down the rows, at row `r` and column `o`. -/
theorem bias_at (b : FVec Ideal S1x768 .f32) (r : Fin 1024) (o : Fin 768) :
    broadcastTo S1024x768 (shapeCast S1x768 b shapeCasts_S1x768_S1x768) broadcasts_S1x768_S1024x768 (ix2 r o) = b (ix2 (0 : Fin 1) o) := by
  rw [shapeCast_self]
  exact broadcastTo_1b_ab_apply b broadcasts_S1x768_S1024x768 r o

/-- The first stored value. -/
theorem q_at (x : FVec Ideal S1024x768 .f32) (w : FVec Ideal S768x2304 .bf16) (b : FVec Ideal S1x768 .f32) (r : Fin 1024) (o : Fin 768) :
    k0_pay2 (F := Ideal) x w b (ix2 r o)
      = (∑ k : Fin 768, x (ix2 r k) * w (ix2 k (⟨0 + o.val, by have := o.isLt; omega⟩ : Fin 2304))) + b (ix2 (0 : Fin 1) o) := by
  unfold k0_pay2
  refine (addf_apply _ _ (ix2 r o)).trans ?_
  rw [bias_at, slice2_axis1_eq 0 (k0_pay1 (F := Ideal) x w) slices_S1024x2304_o0_0_S1024x768 r o, product_at]

/-- The second stored value. -/
theorem k_at (x : FVec Ideal S1024x768 .f32) (w : FVec Ideal S768x2304 .bf16) (b : FVec Ideal S1x768 .f32) (r : Fin 1024) (o : Fin 768) :
    k0_pay3 (F := Ideal) x w b (ix2 r o)
      = (∑ k : Fin 768, x (ix2 r k) * w (ix2 k (⟨768 + o.val, by have := o.isLt; omega⟩ : Fin 2304))) + b (ix2 (0 : Fin 1) o) := by
  unfold k0_pay3
  refine (addf_apply _ _ (ix2 r o)).trans ?_
  rw [bias_at, slice2_axis1_eq 768 (k0_pay1 (F := Ideal) x w) slices_S1024x2304_o0_768_S1024x768 r o, product_at]

/-- The third stored value. -/
theorem v_at (x : FVec Ideal S1024x768 .f32) (w : FVec Ideal S768x2304 .bf16) (b : FVec Ideal S1x768 .f32) (r : Fin 1024) (o : Fin 768) :
    k0_pay4 (F := Ideal) x w b (ix2 r o)
      = (∑ k : Fin 768, x (ix2 r k) * w (ix2 k (⟨1536 + o.val, by have := o.isLt; omega⟩ : Fin 2304))) + b (ix2 (0 : Fin 1) o) := by
  unfold k0_pay4
  refine (addf_apply _ _ (ix2 r o)).trans ?_
  rw [bias_at, slice2_axis1_eq 1536 (k0_pay1 (F := Ideal) x w) slices_S1024x2304_o0_1536_S1024x768 r o, product_at]

end Cert.KernelIdeal.Pay

end
-- ==== Proof.IdealFinal.lean ====
/-
  The idealized kernel: each of the three 32768 x 768 result arrays of the region, after the run, as one function of the
  arrays the region was entered with.

  Grid point `t` (0 ≤ t < 32) reads rows 1024 t … 1024 t + 1023 of the flattened activations, the whole weight and the
  whole bias rows, and writes back rows 1024 t … 1024 t + 1023 of each result. So row `R` of a result is written by point
  R / 1024, from row R of the activations: entry (R, o) of band `off` is

      sum over k < 768 of  X[R, k] * Wt[k, off + o]   +   b[0, o].

  The 32 row tiles cover the array, so this is the whole array after the run.
-/
import proofs.«130201_j19533511262281_2_alg».proof.Proof.IdealBody
import proofs.«130201_j19533511262281_2_alg».proof.Proof.IdealPay

set_option maxRecDepth 16384

noncomputable section

namespace Cert.KernelIdeal.Fr

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

/-- Entry `(R, o)` of band `off` over the flattened activations `X`, the region's weight `Wt` and a bias row `b`. -/
def flatAt (off : Nat) (hoff : off + 768 ≤ 2304) (X : S32768x768.Idx → EReal) (Wt : S768x2304.Idx → EReal) (b : S1x768.Idx → EReal)
    (R : Fin 32768) (o : Fin 768) : EReal :=
  (∑ k : Fin 768, X (ix2 R k) * Wt (ix2 k (⟨off + o.val, by have := o.isLt; omega⟩ : Fin 2304))) + b (ix2 (0 : Fin 1) o)

/-- Band `off` as a whole 32768 x 768 array. -/
def flat (off : Nat) (hoff : off + 768 ≤ 2304) (X : S32768x768.Idx → EReal) (Wt : S768x2304.Idx → EReal) (b : S1x768.Idx → EReal) :
    S32768x768.Idx → EReal :=
  fun j => flatAt off hoff X Wt b (j 0) (j 1)

theorem origin : (![0, 0] : Fin 2 → Nat) = fun _ => 0 := funext fun a => by fin_cases a <;> rfl

/-- The printed index maps, decided over the 32 grid points: the activations' and the results' block row is the point,
    every other block index is zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The input blocks at a point, read at an index -/

/-- The activations' tile at point `t`, at `(r, k)`, is the flattened activations at row `1024 t + r`. -/
theorem tile_at (c : Dev nD) (t : Fin cfg0.N) (r : Fin 1024) (k : Fin 768) (R : Fin 32768) (hR : R.val = t.val * 1024 + r.val) :
    iblk m c 0 t (ix2 r k) = (entryAt m c main_v0 : S32768x768.Idx → EReal) (ix2 R k) := by
  obtain ⟨e0, e1, -⟩ := index_facts t
  show (entryAt m c main_v0 : S32768x768.Idx → EReal) (((cfg0.win 0).blk t).view.emb (ix2 r k)) = _
  refine congrArg _ ?_
  funext a; apply Fin.ext
  match a with
  | ⟨0, _⟩ => show win0_0.index t (0 : Fin 2) * 1024 + 1 * r.val = R.val; omega
  | ⟨1, _⟩ => show win0_0.index t (1 : Fin 2) * 768 + 1 * k.val = k.val; omega

/-- The weight's block at any point is the whole weight. -/
theorem weight_blk_at (c : Dev nD) (t : Fin cfg0.N) (k : Fin 768) (q : Fin 2304) :
    iblk m c 1 t (ix2 k q) = (entryAt m c main_v3 : S768x2304.Idx → EReal) (ix2 k q) := by
  obtain ⟨-, -, e0, e1, -⟩ := index_facts t
  show (entryAt m c main_v3 : S768x2304.Idx → EReal) (((cfg0.win 1).blk t).view.emb (ix2 k q)) = _
  refine congrArg _ ?_
  funext a; apply Fin.ext
  match a with
  | ⟨0, _⟩ => show win0_1.index t (0 : Fin 2) * 768 + 1 * k.val = k.val; omega
  | ⟨1, _⟩ => show win0_1.index t (1 : Fin 2) * 2304 + 1 * q.val = q.val; omega

/-- Each bias row's block at any point is the whole row. -/
theorem bias_q_blk_at (c : Dev nD) (t : Fin cfg0.N) (o : Fin 768) :
    iblk m c 2 t (ix2 (0 : Fin 1) o) = (entryAt m c main_v4 : S1x768.Idx → EReal) (ix2 (0 : Fin 1) o) := by
  obtain ⟨-, -, -, -, e0, e1, -⟩ := index_facts t
  show (entryAt m c main_v4 : S1x768.Idx → EReal) (((cfg0.win 2).blk t).view.emb (ix2 (0 : Fin 1) o)) = _
  refine congrArg _ ?_
  funext a; apply Fin.ext
  match a with
  | ⟨0, _⟩ => show win0_2.index t (0 : Fin 2) * 1 + 1 * 0 = 0; omega
  | ⟨1, _⟩ => show win0_2.index t (1 : Fin 2) * 768 + 1 * o.val = o.val; omega
theorem bias_k_blk_at (c : Dev nD) (t : Fin cfg0.N) (o : Fin 768) :
    iblk m c 3 t (ix2 (0 : Fin 1) o) = (entryAt m c main_v5 : S1x768.Idx → EReal) (ix2 (0 : Fin 1) o) := by
  obtain ⟨-, -, -, -, -, -, e0, e1, -⟩ := index_facts t
  show (entryAt m c main_v5 : S1x768.Idx → EReal) (((cfg0.win 3).blk t).view.emb (ix2 (0 : Fin 1) o)) = _
  refine congrArg _ ?_
  funext a; apply Fin.ext
  match a with
  | ⟨0, _⟩ => show win0_3.index t (0 : Fin 2) * 1 + 1 * 0 = 0; omega
  | ⟨1, _⟩ => show win0_3.index t (1 : Fin 2) * 768 + 1 * o.val = o.val; omega
theorem bias_v_blk_at (c : Dev nD) (t : Fin cfg0.N) (o : Fin 768) :
    iblk m c 4 t (ix2 (0 : Fin 1) o) = (entryAt m c main_v6 : S1x768.Idx → EReal) (ix2 (0 : Fin 1) o) := by
  obtain ⟨-, -, -, -, -, -, -, -, e0, e1, -⟩ := index_facts t
  show (entryAt m c main_v6 : S1x768.Idx → EReal) (((cfg0.win 4).blk t).view.emb (ix2 (0 : Fin 1) o)) = _
  refine congrArg _ ?_
  funext a; apply Fin.ext
  match a with
  | ⟨0, _⟩ => show win0_4.index t (0 : Fin 2) * 1 + 1 * 0 = 0; omega
  | ⟨1, _⟩ => show win0_4.index t (1 : Fin 2) * 768 + 1 * o.val = o.val; omega

/-! ## One band at one point, over variables: the stored value is the band of the whole arrays on the point's rows -/

/-- If a tile `x` is rows `1024 T + r` of `X`, `w` is `Wt` and the row `bb` is `b`, the sum-plus-bias over the tile at `(r, o)` is
    band `off` of the whole arrays at row `1024 T + r`. -/
theorem on_rows (off : Nat) (hoff : off + 768 ≤ 2304) (X : S32768x768.Idx → EReal) (Wt : S768x2304.Idx → EReal) (b : S1x768.Idx → EReal)
    (x : FVec Ideal S1024x768 .f32) (w : FVec Ideal S768x2304 .bf16) (bb : FVec Ideal S1x768 .f32)
    (r : Fin 1024) (o : Fin 768) (R : Fin 32768)
    (hx : ∀ k : Fin 768, x (ix2 r k) = X (ix2 R k)) (hw : ∀ (k : Fin 768) (q : Fin 2304), w (ix2 k q) = Wt (ix2 k q))
    (hb : bb (ix2 (0 : Fin 1) o) = b (ix2 (0 : Fin 1) o)) :
    (∑ k : Fin 768, x (ix2 r k) * w (ix2 k (⟨off + o.val, by have := o.isLt; omega⟩ : Fin 2304))) + bb (ix2 (0 : Fin 1) o)
      = flatAt off hoff X Wt b R o := by
  unfold flatAt
  rw [hb]
  exact congrArg (· + b (ix2 (0 : Fin 1) o)) (Finset.sum_congr rfl fun k _ => by rw [hx k, hw k _])

/-! ## What each point writes back -/

/-- The block of result 0 in point `t`'s rows, as an index of the array. -/
theorem out5_emb (t : Fin cfg0.N) (r : Fin 1024) (o : Fin 768) (R : Fin 32768) (hR : R.val = t.val * 1024 + r.val) :
    ((cfg0.win 5).blk t).view.emb (ix2 r o) = (ix2 R o : S32768x768.Idx) := by
  have hf := index_facts t
  have e0 : win0_5.index t (0 : Fin 2) = t.val := by tauto
  have e1 : win0_5.index t (1 : Fin 2) = 0 := by tauto
  funext a; apply Fin.ext
  match a with
  | ⟨0, _⟩ => show win0_5.index t (0 : Fin 2) * 1024 + 1 * r.val = R.val; omega
  | ⟨1, _⟩ => show win0_5.index t (1 : Fin 2) * 768 + 1 * o.val = o.val; omega

/-- Point `t` writes back block `t` of band 0 of the entry arrays. -/
theorem flushed5_eq (c : Dev nD) (t : Fin cfg0.N) :
    (dats m 0 c).flushed 5 t = ((cfg0.win 5).blk t).view.read (Elt Ideal)
      (flat 0 (by decide) (entryAt m c main_v0) (entryAt m c main_v3) (entryAt m c main_v4)) := by
  show (cfg0.win 5).cut (grid0.coords t) ((dats m 0 c).after 5 t) = _
  rw [after5]
  unfold bandQ
  rw [View.canon_unit_zero origin]
  simp only [View.ld_unit_zero (S := S1024x768) origin, View.ld_unit_zero (S := S768x2304) origin, View.ld_unit_zero (S := S1x768) origin]
  funext j
  obtain ⟨r, o, rfl⟩ : ∃ (r : Fin 1024) (o : Fin 768), j = ix2 r o := ⟨j 0, j 1, eq_ix2 j⟩
  have hT : t.val < 32 := lt_of_lt_of_eq t.isLt N_0
  show k0_pay2 (F := Ideal) (iblk m c 0 t) (iblk m c 1 t) (iblk m c 2 t) (ix2 r o)
    = flat 0 (by decide) (entryAt m c main_v0) (entryAt m c main_v3) (entryAt m c main_v4) (((cfg0.win 5).blk t).view.emb (ix2 r o))
  rw [out5_emb t r o ⟨t.val * 1024 + r.val, by have := r.isLt; omega⟩ rfl]
  refine (Pay.q_at (iblk m c 0 t) (iblk m c 1 t) (iblk m c 2 t) r o).trans ?_
  exact on_rows 0 (by decide) (entryAt m c main_v0) (entryAt m c main_v3) (entryAt m c main_v4)
    (iblk m c 0 t) (iblk m c 1 t) (iblk m c 2 t) r o ⟨t.val * 1024 + r.val, by have := r.isLt; omega⟩
    (fun k => tile_at m c t r k _ rfl) (fun k q => weight_blk_at m c t k q) (bias_q_blk_at m c t o)

/-- An index of result 0 is in point `t`'s block iff its row is among the point's 1024 rows. -/
theorem mem_blk5 (t : Fin cfg0.N) (i : S32768x768.Idx) :
    i ∈ ((cfg0.win 5).blk t).view.set ↔ ∀ a : Fin 2, win0_5.index t a * S1024x768.size a ≤ (i a).val ∧ (i a).val < win0_5.index t a * S1024x768.size a + S1024x768.size a := by
  show i ∈ ((View.whole main_v7_0).slice (win0_5.rect t)).set ↔ _
  rw [View.set_slice_whole, Rect.mem_set_unit]
  exact Iff.rfl

/-- Every index of result 0 is in the block of the point its row names. -/
theorem cover5 (i : S32768x768.Idx) : ∃ t : Fin cfg0.N, (cfg0.win 5).flush t = true ∧ i ∈ ((cfg0.win 5).blk t).view.set := by
  have hi0 : (i 0).val < 32768 := (i 0).isLt
  have hi1 : (i 1).val < 768 := (i 1).isLt
  let t : Fin cfg0.N := ⟨(i 0).val / 1024, lt_of_lt_of_eq (by omega : (i 0).val / 1024 < 32) N_0.symm⟩
  have hf := index_facts t
  have e0 : win0_5.index t (0 : Fin 2) = (i 0).val / 1024 := by tauto
  have e1 : win0_5.index t (1 : Fin 2) = 0 := by tauto
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 768 ≤ (i 1).val ∧ (i 1).val < win0_5.index t (1 : Fin 2) * 768 + 768; omega

/-- Result 0 after the run is band 0 of the entry arrays. -/
theorem final5 (c : Dev nD) :
    (dats m 0 c).arrAt 5 cfg0.N = flat 0 (by decide) (entryAt m c main_v0) (entryAt m c main_v3) (entryAt m c main_v4) :=
  (dats m 0 c).arrAt_eq_of_cover 5 _ (fun t _ => flushed5_eq m c t) cover5

/-- The block of result 1 in point `t`'s rows, as an index of the array. -/
theorem out6_emb (t : Fin cfg0.N) (r : Fin 1024) (o : Fin 768) (R : Fin 32768) (hR : R.val = t.val * 1024 + r.val) :
    ((cfg0.win 6).blk t).view.emb (ix2 r o) = (ix2 R o : S32768x768.Idx) := by
  have hf := index_facts t
  have e0 : win0_6.index t (0 : Fin 2) = t.val := by tauto
  have e1 : win0_6.index t (1 : Fin 2) = 0 := by tauto
  funext a; apply Fin.ext
  match a with
  | ⟨0, _⟩ => show win0_6.index t (0 : Fin 2) * 1024 + 1 * r.val = R.val; omega
  | ⟨1, _⟩ => show win0_6.index t (1 : Fin 2) * 768 + 1 * o.val = o.val; omega

/-- Point `t` writes back block `t` of band 768 of the entry arrays. -/
theorem flushed6_eq (c : Dev nD) (t : Fin cfg0.N) :
    (dats m 0 c).flushed 6 t = ((cfg0.win 6).blk t).view.read (Elt Ideal)
      (flat 768 (by decide) (entryAt m c main_v0) (entryAt m c main_v3) (entryAt m c main_v5)) := by
  show (cfg0.win 6).cut (grid0.coords t) ((dats m 0 c).after 6 t) = _
  rw [after6]
  unfold bandK
  rw [View.canon_unit_zero origin]
  simp only [View.ld_unit_zero (S := S1024x768) origin, View.ld_unit_zero (S := S768x2304) origin, View.ld_unit_zero (S := S1x768) origin]
  funext j
  obtain ⟨r, o, rfl⟩ : ∃ (r : Fin 1024) (o : Fin 768), j = ix2 r o := ⟨j 0, j 1, eq_ix2 j⟩
  have hT : t.val < 32 := lt_of_lt_of_eq t.isLt N_0
  show k0_pay3 (F := Ideal) (iblk m c 0 t) (iblk m c 1 t) (iblk m c 3 t) (ix2 r o)
    = flat 768 (by decide) (entryAt m c main_v0) (entryAt m c main_v3) (entryAt m c main_v5) (((cfg0.win 6).blk t).view.emb (ix2 r o))
  rw [out6_emb t r o ⟨t.val * 1024 + r.val, by have := r.isLt; omega⟩ rfl]
  refine (Pay.k_at (iblk m c 0 t) (iblk m c 1 t) (iblk m c 3 t) r o).trans ?_
  exact on_rows 768 (by decide) (entryAt m c main_v0) (entryAt m c main_v3) (entryAt m c main_v5)
    (iblk m c 0 t) (iblk m c 1 t) (iblk m c 3 t) r o ⟨t.val * 1024 + r.val, by have := r.isLt; omega⟩
    (fun k => tile_at m c t r k _ rfl) (fun k q => weight_blk_at m c t k q) (bias_k_blk_at m c t o)

/-- An index of result 1 is in point `t`'s block iff its row is among the point's 1024 rows. -/
theorem mem_blk6 (t : Fin cfg0.N) (i : S32768x768.Idx) :
    i ∈ ((cfg0.win 6).blk t).view.set ↔ ∀ a : Fin 2, win0_6.index t a * S1024x768.size a ≤ (i a).val ∧ (i a).val < win0_6.index t a * S1024x768.size a + S1024x768.size a := by
  show i ∈ ((View.whole main_v7_1).slice (win0_6.rect t)).set ↔ _
  rw [View.set_slice_whole, Rect.mem_set_unit]
  exact Iff.rfl

/-- Every index of result 1 is in the block of the point its row names. -/
theorem cover6 (i : S32768x768.Idx) : ∃ t : Fin cfg0.N, (cfg0.win 6).flush t = true ∧ i ∈ ((cfg0.win 6).blk t).view.set := by
  have hi0 : (i 0).val < 32768 := (i 0).isLt
  have hi1 : (i 1).val < 768 := (i 1).isLt
  let t : Fin cfg0.N := ⟨(i 0).val / 1024, lt_of_lt_of_eq (by omega : (i 0).val / 1024 < 32) N_0.symm⟩
  have hf := index_facts t
  have e0 : win0_6.index t (0 : Fin 2) = (i 0).val / 1024 := by tauto
  have e1 : win0_6.index t (1 : Fin 2) = 0 := by tauto
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 768 ≤ (i 1).val ∧ (i 1).val < win0_6.index t (1 : Fin 2) * 768 + 768; omega

/-- Result 1 after the run is band 768 of the entry arrays. -/
theorem final6 (c : Dev nD) :
    (dats m 0 c).arrAt 6 cfg0.N = flat 768 (by decide) (entryAt m c main_v0) (entryAt m c main_v3) (entryAt m c main_v5) :=
  (dats m 0 c).arrAt_eq_of_cover 6 _ (fun t _ => flushed6_eq m c t) cover6

/-- The block of result 2 in point `t`'s rows, as an index of the array. -/
theorem out7_emb (t : Fin cfg0.N) (r : Fin 1024) (o : Fin 768) (R : Fin 32768) (hR : R.val = t.val * 1024 + r.val) :
    ((cfg0.win 7).blk t).view.emb (ix2 r o) = (ix2 R o : S32768x768.Idx) := by
  have hf := index_facts t
  have e0 : win0_7.index t (0 : Fin 2) = t.val := by tauto
  have e1 : win0_7.index t (1 : Fin 2) = 0 := by tauto
  funext a; apply Fin.ext
  match a with
  | ⟨0, _⟩ => show win0_7.index t (0 : Fin 2) * 1024 + 1 * r.val = R.val; omega
  | ⟨1, _⟩ => show win0_7.index t (1 : Fin 2) * 768 + 1 * o.val = o.val; omega

/-- Point `t` writes back block `t` of band 1536 of the entry arrays. -/
theorem flushed7_eq (c : Dev nD) (t : Fin cfg0.N) :
    (dats m 0 c).flushed 7 t = ((cfg0.win 7).blk t).view.read (Elt Ideal)
      (flat 1536 (by decide) (entryAt m c main_v0) (entryAt m c main_v3) (entryAt m c main_v6)) := by
  show (cfg0.win 7).cut (grid0.coords t) ((dats m 0 c).after 7 t) = _
  rw [after7]
  unfold bandV
  rw [View.canon_unit_zero origin]
  simp only [View.ld_unit_zero (S := S1024x768) origin, View.ld_unit_zero (S := S768x2304) origin, View.ld_unit_zero (S := S1x768) origin]
  funext j
  obtain ⟨r, o, rfl⟩ : ∃ (r : Fin 1024) (o : Fin 768), j = ix2 r o := ⟨j 0, j 1, eq_ix2 j⟩
  have hT : t.val < 32 := lt_of_lt_of_eq t.isLt N_0
  show k0_pay4 (F := Ideal) (iblk m c 0 t) (iblk m c 1 t) (iblk m c 4 t) (ix2 r o)
    = flat 1536 (by decide) (entryAt m c main_v0) (entryAt m c main_v3) (entryAt m c main_v6) (((cfg0.win 7).blk t).view.emb (ix2 r o))
  rw [out7_emb t r o ⟨t.val * 1024 + r.val, by have := r.isLt; omega⟩ rfl]
  refine (Pay.v_at (iblk m c 0 t) (iblk m c 1 t) (iblk m c 4 t) r o).trans ?_
  exact on_rows 1536 (by decide) (entryAt m c main_v0) (entryAt m c main_v3) (entryAt m c main_v6)
    (iblk m c 0 t) (iblk m c 1 t) (iblk m c 4 t) r o ⟨t.val * 1024 + r.val, by have := r.isLt; omega⟩
    (fun k => tile_at m c t r k _ rfl) (fun k q => weight_blk_at m c t k q) (bias_v_blk_at m c t o)

/-- An index of result 2 is in point `t`'s block iff its row is among the point's 1024 rows. -/
theorem mem_blk7 (t : Fin cfg0.N) (i : S32768x768.Idx) :
    i ∈ ((cfg0.win 7).blk t).view.set ↔ ∀ a : Fin 2, win0_7.index t a * S1024x768.size a ≤ (i a).val ∧ (i a).val < win0_7.index t a * S1024x768.size a + S1024x768.size a := by
  show i ∈ ((View.whole main_v7_2).slice (win0_7.rect t)).set ↔ _
  rw [View.set_slice_whole, Rect.mem_set_unit]
  exact Iff.rfl

/-- Every index of result 2 is in the block of the point its row names. -/
theorem cover7 (i : S32768x768.Idx) : ∃ t : Fin cfg0.N, (cfg0.win 7).flush t = true ∧ i ∈ ((cfg0.win 7).blk t).view.set := by
  have hi0 : (i 0).val < 32768 := (i 0).isLt
  have hi1 : (i 1).val < 768 := (i 1).isLt
  let t : Fin cfg0.N := ⟨(i 0).val / 1024, lt_of_lt_of_eq (by omega : (i 0).val / 1024 < 32) N_0.symm⟩
  have hf := index_facts t
  have e0 : win0_7.index t (0 : Fin 2) = (i 0).val / 1024 := by tauto
  have e1 : win0_7.index t (1 : Fin 2) = 0 := by tauto
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 768 ≤ (i 1).val ∧ (i 1).val < win0_7.index t (1 : Fin 2) * 768 + 768; omega

/-- Result 2 after the run is band 1536 of the entry arrays. -/
theorem final7 (c : Dev nD) :
    (dats m 0 c).arrAt 7 cfg0.N = flat 1536 (by decide) (entryAt m c main_v0) (entryAt m c main_v3) (entryAt m c main_v6) :=
  (dats m 0 c).arrAt_eq_of_cover 7 _ (fun t _ => flushed7_eq m c t) cover7

end Cert.KernelIdeal.Fr

end
-- ==== Proof.IdealArrays.lean ====
/-
  The idealized kernel: what the region's five input arrays hold when it is entered, index by index.

  The flattened activations at (1 x 4096 p + s, k) are the activations at (p, s, k) (a relayout keeps row-major
  position); the weight handed to the region at (k, q) is the row-stacked weight at (q, k) (transposed, then narrowed,
  which is the identity on extended reals); each bias row at (0, o) is the bias at o.
-/
import proofs.«130201_j19533511262281_2_alg».proof.Proof.IdealAround
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Fr

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The row-stacked weight: the three weight matrices one above the other. -/
def stacked (c : Dev nD) : S2304x768.Idx → EReal :=
  concatenate S2304x768 0 [⟨S768x768, m ((c : Thread nD τ).loc main_arg1)⟩, ⟨S768x768, m ((c : Thread nD τ).loc main_arg3)⟩,
    ⟨S768x768, m ((c : Thread nD τ).loc main_arg5)⟩] concatenates_S768x768_S768x768_S768x768_S2304x768_d0

/-- The flattened activations are the activations relaid. -/
theorem entry_acts (c : Dev nD) :
    (entryAt m c main_v0 : S32768x768.Idx → EReal)
      = shapeCast S32768x768 (m ((c : Thread nD τ).loc main_arg0)) shapeCasts_S8x4096x768_S32768x768 := by
  show StableHlo.after hostOps0 (fun b => m (c, b)) (Proc.devRef .tc main_v0) = _
  after_results
  rfl

/-- The weight handed to the region is the stacked weight transposed and narrowed. -/
theorem entry_weight (c : Dev nD) :
    (entryAt m c main_v3 : S768x2304.Idx → EReal)
      = truncf (F := Ideal) .bf16 (transpose S768x2304 [1, 0] (stacked m c) transposes_S2304x768_S768x2304_1_0) bitsLt_bf16_f32 := by
  show StableHlo.after hostOps0 (fun b => m (c, b)) (Proc.devRef .tc main_v3) = _
  after_results
  rfl

theorem entry_bias_q (c : Dev nD) :
    (entryAt m c main_v4 : S1x768.Idx → EReal) = shapeCast S1x768 (m ((c : Thread nD τ).loc main_arg2)) shapeCasts_S768_S1x768 := by
  show StableHlo.after hostOps0 (fun b => m (c, b)) (Proc.devRef .tc main_v4) = _
  after_results
  rfl
theorem entry_bias_k (c : Dev nD) :
    (entryAt m c main_v5 : S1x768.Idx → EReal) = shapeCast S1x768 (m ((c : Thread nD τ).loc main_arg4)) shapeCasts_S768_S1x768 := by
  show StableHlo.after hostOps0 (fun b => m (c, b)) (Proc.devRef .tc main_v5) = _
  after_results
  rfl
theorem entry_bias_v (c : Dev nD) :
    (entryAt m c main_v6 : S1x768.Idx → EReal) = shapeCast S1x768 (m ((c : Thread nD τ).loc main_arg6)) shapeCasts_S768_S1x768 := by
  show StableHlo.after hostOps0 (fun b => m (c, b)) (Proc.devRef .tc main_v6) = _
  after_results
  rfl

/-! ## Read at an index -/

/-- Row `4096 p + s` of the flattened activations is row `(p, s)` of the activations. -/
theorem acts_at (c : Dev nD) (p : Fin 8) (s : Fin 4096) (k : Fin 768) :
    (entryAt m c main_v0 : S32768x768.Idx → EReal) (ix2 (⟨p.val * 4096 + s.val, by have := p.isLt; have := s.isLt; omega⟩ : Fin 32768) k)
      = m ((c : Thread nD τ).loc main_arg0) (ix3 p s k) := by
  rw [entry_acts]
  refine shapeCast_apply _ shapeCasts_S8x4096x768_S32768x768 _ (ix3 p s k) ?_
  rw [Shape.rowMajor_val_three, Shape.rowMajor_val_two]
  show (p.val * 4096 + s.val) * 768 + k.val = (p.val * 4096 + s.val) * 768 + k.val
  rfl

/-- The region's weight at `(k, q)` is the stacked weight at `(q, k)`. -/
theorem weight_at (c : Dev nD) (k : Fin 768) (q : Fin 2304) :
    (entryAt m c main_v3 : S768x2304.Idx → EReal) (ix2 k q) = stacked m c (ix2 q k) := by
  rw [entry_weight]
  refine (truncf_apply _ bitsLt_bf16_f32 (ix2 k q)).trans ?_
  exact transpose_ix2_apply (stacked m c) transposes_S2304x768_S768x2304_1_0 k q

theorem bias_q_at (c : Dev nD) (o : Fin 768) :
    (entryAt m c main_v4 : S1x768.Idx → EReal) (ix2 (0 : Fin 1) o) = m ((c : Thread nD τ).loc main_arg2) (ix1 o) := by
  rw [entry_bias_q]; exact shapeCast_a_1a_apply _ shapeCasts_S768_S1x768 0 o
theorem bias_k_at (c : Dev nD) (o : Fin 768) :
    (entryAt m c main_v5 : S1x768.Idx → EReal) (ix2 (0 : Fin 1) o) = m ((c : Thread nD τ).loc main_arg4) (ix1 o) := by
  rw [entry_bias_k]; exact shapeCast_a_1a_apply _ shapeCasts_S768_S1x768 0 o
theorem bias_v_at (c : Dev nD) (o : Fin 768) :
    (entryAt m c main_v6 : S1x768.Idx → EReal) (ix2 (0 : Fin 1) o) = m ((c : Thread nD τ).loc main_arg6) (ix1 o) := by
  rw [entry_bias_v]; exact shapeCast_a_1a_apply _ shapeCasts_S768_S1x768 0 o

end Cert.KernelIdeal.Fr

end
-- ==== Proof.Proj.lean ====
/-
  The mathematics both programs compute, stated once over the extended reals.

  Activations `x` of shape 8 x 4096 x 768, a stacked weight `W` of shape 2304 x 768 (three 768 x 768 matrices one above
  the other) and a bias `b` of length 768. Band `off` (0, 768 or 1536) of the projection is, at batch `p`, position `s`
  and output feature `o`,

      sum over k < 768 of  x[p, s, k] * W[off + o, k]   +   b[o].

  Nothing here is arranged differently on the two sides: the kernel sums the same products in the same index set for one
  1024-row tile at a time, the reference for all rows at once; so no law of the extended reals beyond reading both sides
  at an index is needed, and finiteness of the inputs is never used.
-/
import Idealize.ShloMosaic.PureOps.Ideal
import Idealize.ShloMosaic.Lib.ValueIdx

noncomputable section

namespace Cert.Proj

open Idealize.ShloMosaic Idealize.ShloMosaic.ValueIdx

abbrev Acts : Shape := ⟨3, ![8, 4096, 768]⟩
abbrev Stacked : Shape := ⟨2, ![2304, 768]⟩
abbrev Row : Shape := ⟨1, ![768]⟩

/-- One entry of band `off`: row `off + o` of the stacked weight against activation row `(p, s)`, plus the bias at `o`. -/
def bandAt (off : Nat) (hoff : off + 768 ≤ 2304) (x : Acts.Idx → EReal) (W : Stacked.Idx → EReal) (b : Row.Idx → EReal)
    (p : Fin 8) (s : Fin 4096) (o : Fin 768) : EReal :=
  (∑ k : Fin 768, x (ix3 p s k) * W (ix2 (⟨off + o.val, by have := o.isLt; omega⟩ : Fin 2304) k)) + b (ix1 o)

/-- Band `off` as a whole 8 x 4096 x 768 array. -/
def band (off : Nat) (hoff : off + 768 ≤ 2304) (x : Acts.Idx → EReal) (W : Stacked.Idx → EReal) (b : Row.Idx → EReal) :
    Acts.Idx → EReal :=
  fun i => bandAt off hoff x W b (i 0) (i 1) (i 2)

theorem band_ix3 (off : Nat) (hoff : off + 768 ≤ 2304) (x : Acts.Idx → EReal) (W : Stacked.Idx → EReal) (b : Row.Idx → EReal)
    (p : Fin 8) (s : Fin 4096) (o : Fin 768) : band off hoff x W b (ix3 p s o) = bandAt off hoff x W b p s o := rfl

end Cert.Proj

end
-- ==== Proof.IdealValue.lean ====
/-
  The idealized kernel: its three results as bands of the projection of the ARGUMENTS.

  After the region, each 32768 x 768 result is relaid to 8 x 4096 x 768: entry (p, s, o) is entry (4096 p + s, o). With
  the region's results known as bands over the entry arrays, and the entry arrays read back to the arguments (row
  4096 p + s of the flattened activations is row (p, s); the region's weight at (k, q) is the stacked weight at (q, k);
  a bias row at (0, o) is the bias at o), each result at (p, s, o) is

      sum over k < 768 of  x[p, s, k] * W[off + o, k]   +   b[o].
-/
import proofs.«130201_j19533511262281_2_alg».proof.Proof.IdealFinal
import proofs.«130201_j19533511262281_2_alg».proof.Proof.IdealArrays
import proofs.«130201_j19533511262281_2_alg».proof.Proof.Proj

set_option maxRecDepth 16384

noncomputable section

namespace Cert.KernelIdeal.Fr

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Proj

variable (m : (ℓ : Loc nD τ sig) → Buf (Elt Ideal) ℓ) (ρ : Dev nD → PrngReg)

/-- Result 0 after the tail is the region's result 0 relaid. -/
theorem tail8 (c : Dev nD) :
    (Pipeline.afterTail₀ cfgs (dats m) 0 (entryVal m) [hostOps1] c main_v8 : S8x4096x768.Idx → EReal)
      = shapeCast S8x4096x768 ((dats m 0 c).arrAt 5 cfg0.N) shapeCasts_S32768x768_S8x4096x768 := by
  unfold Pipeline.afterTail₀
  show StableHlo.after hostOps1 _ (Proc.devRef .tc main_v8) = _
  after_results
  exact congrArg (fun v => shapeCast S8x4096x768 v shapeCasts_S32768x768_S8x4096x768)
    (Pipeline.withArrays_arr spec0 launch0.win.arr_inj c _ _ 5)

/-- Result 0 is band 0 of the arguments. -/
theorem result8 (c : Dev nD) :
    (Pipeline.afterTail₀ cfgs (dats m) 0 (entryVal m) [hostOps1] c main_v8 : S8x4096x768.Idx → EReal)
      = band 0 (by decide) (m ((c : Thread nD τ).loc main_arg0)) (stacked m c) (m ((c : Thread nD τ).loc main_arg2)) := by
  rw [tail8, final5]
  funext i
  obtain ⟨p, s, o, rfl⟩ : ∃ (p : Fin 8) (s : Fin 4096) (o : Fin 768), i = ix3 p s o := ⟨i 0, i 1, i 2, eq_ix3 i⟩
  rw [band_ix3]
  refine (shapeCast_apply _ shapeCasts_S32768x768_S8x4096x768 (ix3 p s o)
    (ix2 (⟨p.val * 4096 + s.val, by have := p.isLt; have := s.isLt; omega⟩ : Fin 32768) o) ?_).trans ?_
  · rw [Shape.rowMajor_val_two, Shape.rowMajor_val_three]
    show (p.val * 4096 + s.val) * 768 + o.val = (p.val * 4096 + s.val) * 768 + o.val
    rfl
  · show flatAt 0 (by decide) (entryAt m c main_v0) (entryAt m c main_v3) (entryAt m c main_v4)
      (⟨p.val * 4096 + s.val, by have := p.isLt; have := s.isLt; omega⟩ : Fin 32768) o = _
    unfold flatAt bandAt
    rw [bias_q_at]
    exact congrArg (· + m ((c : Thread nD τ).loc main_arg2) (ix1 o))
      (Finset.sum_congr rfl fun k _ => by rw [acts_at m c p s k, weight_at])

/-- Result 1 after the tail is the region's result 1 relaid. -/
theorem tail9 (c : Dev nD) :
    (Pipeline.afterTail₀ cfgs (dats m) 0 (entryVal m) [hostOps1] c main_v9 : S8x4096x768.Idx → EReal)
      = shapeCast S8x4096x768 ((dats m 0 c).arrAt 6 cfg0.N) shapeCasts_S32768x768_S8x4096x768 := by
  unfold Pipeline.afterTail₀
  show StableHlo.after hostOps1 _ (Proc.devRef .tc main_v9) = _
  after_results
  exact congrArg (fun v => shapeCast S8x4096x768 v shapeCasts_S32768x768_S8x4096x768)
    (Pipeline.withArrays_arr spec0 launch0.win.arr_inj c _ _ 6)

/-- Result 1 is band 768 of the arguments. -/
theorem result9 (c : Dev nD) :
    (Pipeline.afterTail₀ cfgs (dats m) 0 (entryVal m) [hostOps1] c main_v9 : S8x4096x768.Idx → EReal)
      = band 768 (by decide) (m ((c : Thread nD τ).loc main_arg0)) (stacked m c) (m ((c : Thread nD τ).loc main_arg4)) := by
  rw [tail9, final6]
  funext i
  obtain ⟨p, s, o, rfl⟩ : ∃ (p : Fin 8) (s : Fin 4096) (o : Fin 768), i = ix3 p s o := ⟨i 0, i 1, i 2, eq_ix3 i⟩
  rw [band_ix3]
  refine (shapeCast_apply _ shapeCasts_S32768x768_S8x4096x768 (ix3 p s o)
    (ix2 (⟨p.val * 4096 + s.val, by have := p.isLt; have := s.isLt; omega⟩ : Fin 32768) o) ?_).trans ?_
  · rw [Shape.rowMajor_val_two, Shape.rowMajor_val_three]
    show (p.val * 4096 + s.val) * 768 + o.val = (p.val * 4096 + s.val) * 768 + o.val
    rfl
  · show flatAt 768 (by decide) (entryAt m c main_v0) (entryAt m c main_v3) (entryAt m c main_v5)
      (⟨p.val * 4096 + s.val, by have := p.isLt; have := s.isLt; omega⟩ : Fin 32768) o = _
    unfold flatAt bandAt
    rw [bias_k_at]
    exact congrArg (· + m ((c : Thread nD τ).loc main_arg4) (ix1 o))
      (Finset.sum_congr rfl fun k _ => by rw [acts_at m c p s k, weight_at])

/-- Result 2 after the tail is the region's result 2 relaid. -/
theorem tail10 (c : Dev nD) :
    (Pipeline.afterTail₀ cfgs (dats m) 0 (entryVal m) [hostOps1] c main_v10 : S8x4096x768.Idx → EReal)
      = shapeCast S8x4096x768 ((dats m 0 c).arrAt 7 cfg0.N) shapeCasts_S32768x768_S8x4096x768 := by
  unfold Pipeline.afterTail₀
  show StableHlo.after hostOps1 _ (Proc.devRef .tc main_v10) = _
  after_results
  exact congrArg (fun v => shapeCast S8x4096x768 v shapeCasts_S32768x768_S8x4096x768)
    (Pipeline.withArrays_arr spec0 launch0.win.arr_inj c _ _ 7)

/-- Result 2 is band 1536 of the arguments. -/
theorem result10 (c : Dev nD) :
    (Pipeline.afterTail₀ cfgs (dats m) 0 (entryVal m) [hostOps1] c main_v10 : S8x4096x768.Idx → EReal)
      = band 1536 (by decide) (m ((c : Thread nD τ).loc main_arg0)) (stacked m c) (m ((c : Thread nD τ).loc main_arg6)) := by
  rw [tail10, final7]
  funext i
  obtain ⟨p, s, o, rfl⟩ : ∃ (p : Fin 8) (s : Fin 4096) (o : Fin 768), i = ix3 p s o := ⟨i 0, i 1, i 2, eq_ix3 i⟩
  rw [band_ix3]
  refine (shapeCast_apply _ shapeCasts_S32768x768_S8x4096x768 (ix3 p s o)
    (ix2 (⟨p.val * 4096 + s.val, by have := p.isLt; have := s.isLt; omega⟩ : Fin 32768) o) ?_).trans ?_
  · rw [Shape.rowMajor_val_two, Shape.rowMajor_val_three]
    show (p.val * 4096 + s.val) * 768 + o.val = (p.val * 4096 + s.val) * 768 + o.val
    rfl
  · show flatAt 1536 (by decide) (entryAt m c main_v0) (entryAt m c main_v3) (entryAt m c main_v6)
      (⟨p.val * 4096 + s.val, by have := p.isLt; have := s.isLt; omega⟩ : Fin 32768) o = _
    unfold flatAt bandAt
    rw [bias_v_at]
    exact congrArg (· + m ((c : Thread nD τ).loc main_arg6) (ix1 o))
      (Finset.sum_congr rfl fun k _ => by rw [acts_at m c p s k, weight_at])

/-- Every weakly fair run of the idealized kernel terminates with its three results at the three bands of the projection of
    the arguments, and the arguments as launched. -/
theorem run_bands : θ_run defs (onTc (τ := τ) (main (F := Ideal))) ⟨m, fun _ => 0, ρ⟩ fun r => ∀ c : Dev nD,
      r.2.mem ((c.tc : Thread nD τ).loc main_v8) = band 0 (by decide) (m ((c : Thread nD τ).loc main_arg0)) (stacked m c) (m ((c : Thread nD τ).loc main_arg2))
      ∧ r.2.mem ((c.tc : Thread nD τ).loc main_v9) = band 768 (by decide) (m ((c : Thread nD τ).loc main_arg0)) (stacked m c) (m ((c : Thread nD τ).loc main_arg4))
      ∧ r.2.mem ((c.tc : Thread nD τ).loc main_v10) = band 1536 (by decide) (m ((c : Thread nD τ).loc main_arg0)) (stacked m c) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v8 (Pipeline.mem_restRefs_of main_v8 (by decide) (by decide))).trans (result8 m c),
     ((h c).2 main_v9 (Pipeline.mem_restRefs_of main_v9 (by decide) (by decide))).trans (result9 m c),
     ((h c).2 main_v10 (Pipeline.mem_restRefs_of main_v10 (by decide) (by decide))).trans (result10 m c),
     ((h c).2 main_arg0 (Pipeline.mem_restRefs_of main_arg0 (by decide) (by decide))).trans (exit_arg0 m (dats m) c),
     ((h c).2 main_arg1 (Pipeline.mem_restRefs_of main_arg1 (by decide) (by decide))).trans (exit_arg1 m (dats m) c),
     ((h c).2 main_arg2 (Pipeline.mem_restRefs_of main_arg2 (by decide) (by decide))).trans (exit_arg2 m (dats m) c),
     ((h c).2 main_arg3 (Pipeline.mem_restRefs_of main_arg3 (by decide) (by decide))).trans (exit_arg3 m (dats m) c),
     ((h c).2 main_arg4 (Pipeline.mem_restRefs_of main_arg4 (by decide) (by decide))).trans (exit_arg4 m (dats m) c),
     ((h c).2 main_arg5 (Pipeline.mem_restRefs_of main_arg5 (by decide) (by decide))).trans (exit_arg5 m (dats m) c),
     ((h c).2 main_arg6 (Pipeline.mem_restRefs_of main_arg6 (by decide) (by decide))).trans (exit_arg6 m (dats m) c)⟩)
    (run_main m ρ)

end Cert.KernelIdeal.Fr

end
-- ==== Proof.RefSide.lean ====
/-
  The reference read index by index: each of its three results is a band of the projection.

  The reference multiplies all 8 x 4096 activation rows by the row-stacked weight at once (contracting the 768 features),
  adds the three biases laid end to end (length 2304) along the last axis, and cuts the 8 x 4096 x 2304 result into three
  column bands of width 768. At `(p, s, o)` band `off` is therefore the sum over k of x[p, s, k] * W[off + o, k], plus
  entry `off + o` of the end-to-end biases — which is entry `o` of the first, second or third bias for off = 0, 768, 1536.
-/
import proofs.«130201_j19533511262281_2_alg».proof.Proof.Gen.ReferenceIdeal.Run
import proofs.«130201_j19533511262281_2_alg».proof.Proof.Gen.ReferenceIdeal.Read
import proofs.«130201_j19533511262281_2_alg».proof.Proof.Proj
import Idealize.ShloMosaic.Lib.ValueIdx
import Idealize.ShloMosaic.Lib.Pipeline.Value

noncomputable section

namespace Cert.ReferenceIdeal.RefValue

open Idealize.ShloMosaic Idealize.ShloMosaic.ValueIdx
open Cert.ReferenceIdeal Cert.ReferenceIdeal.Gen Cert.ReferenceIdeal.Read Cert.Proj

/-! ## The biases laid end to end -/

theorem bias_first (x2 x4 x6 : S768.Idx → EReal) (o : Fin 768) :
    val_main_v1 (F := Ideal) x2 x4 x6 (ix1 (⟨0 + o.val, by have := o.isLt; omega⟩ : Fin 2304)) = x2 (ix1 o) := by
  unfold val_main_v1
  exact concatenate_apply_piece (0 : Fin S2304.rank) [⟨S768, x2⟩, ⟨S768, x4⟩, ⟨S768, x6⟩] concatenates_S768_S768_S768_S2304_d0 _
    0 (show (0 : Nat) < 3 by omega) S768 x2 rfl rfl 0 rfl (ix1 o)
    (fun b hb => absurd (Fin.ext (by have : b.val < 1 := b.isLt; show b.val = 0; omega)) hb) rfl

theorem bias_second (x2 x4 x6 : S768.Idx → EReal) (o : Fin 768) :
    val_main_v1 (F := Ideal) x2 x4 x6 (ix1 (⟨768 + o.val, by have := o.isLt; omega⟩ : Fin 2304)) = x4 (ix1 o) := by
  unfold val_main_v1
  exact concatenate_apply_piece (0 : Fin S2304.rank) [⟨S768, x2⟩, ⟨S768, x4⟩, ⟨S768, x6⟩] concatenates_S768_S768_S768_S2304_d0 _
    1 (show (1 : Nat) < 3 by omega) S768 x4 rfl rfl 768 rfl (ix1 o)
    (fun b hb => absurd (Fin.ext (by have : b.val < 1 := b.isLt; show b.val = 0; omega)) hb) rfl

theorem bias_third (x2 x4 x6 : S768.Idx → EReal) (o : Fin 768) :
    val_main_v1 (F := Ideal) x2 x4 x6 (ix1 (⟨1536 + o.val, by have := o.isLt; omega⟩ : Fin 2304)) = x6 (ix1 o) := by
  unfold val_main_v1
  exact concatenate_apply_piece (0 : Fin S2304.rank) [⟨S768, x2⟩, ⟨S768, x4⟩, ⟨S768, x6⟩] concatenates_S768_S768_S768_S2304_d0 _
    2 (show (2 : Nat) < 3 by omega) S768 x6 rfl rfl 1536 rfl (ix1 o)
    (fun b hb => absurd (Fin.ext (by have : b.val < 1 := b.isLt; show b.val = 0; omega)) hb) rfl

/-! ## The three results -/

/-- The first result is band 0 of the activations against the stacked weight, plus the first bias. -/
theorem first_is_band (x0 : S8x4096x768.Idx → EReal) (x1 x3 x5 : S768x768.Idx → EReal) (x2 x4 x6 : S768.Idx → EReal) :
    val_main_v6 (F := Ideal) x0 x1 x2 x3 x4 x5 x6 = band 0 (by decide) x0 (val_main_v0 (F := Ideal) x1 x3 x5) x2 := by
  funext i
  obtain ⟨p, s, o, rfl⟩ : ∃ (p : Fin 8) (s : Fin 4096) (o : Fin 768), i = ix3 p s o := ⟨i 0, i 1, i 2, eq_ix3 i⟩
  rw [val_main_v6_apply, val_main_v5_apply, val_main_v2_apply, val_main_v4_apply, val_main_v3_apply, band_ix3]
  unfold bandAt
  have hl : ∀ k : Fin 768, lidx_main_v2 (idx_main_v6 (ix3 p s o)) k = ix3 p s k := fun k => funext fun a => Fin.ext (by
    match a with | ⟨0, _⟩ => rfl | ⟨1, _⟩ => rfl | ⟨2, _⟩ => rfl)
  have hr : ∀ k : Fin 768, ridx_main_v2 (idx_main_v6 (ix3 p s o)) k = ix2 (⟨0 + o.val, by have := o.isLt; omega⟩ : Fin 2304) k :=
    fun k => funext fun a => Fin.ext (by
      match a with | ⟨0, _⟩ => exact (Nat.zero_add _).symm | ⟨1, _⟩ => rfl)
  have hb : idx_main_v3 (idx_main_v4 (idx_main_v6 (ix3 p s o))) = ix1 (⟨0 + o.val, by have := o.isLt; omega⟩ : Fin 2304) :=
    funext fun a => Fin.ext (by match a with | ⟨0, _⟩ => exact (Nat.zero_add _).symm)
  rw [hb, bias_first]
  exact congrArg (· + x2 (ix1 o)) (Finset.sum_congr rfl fun k _ => by rw [hl k, hr k])

/-- The second result is band 768, plus the second bias. -/
theorem second_is_band (x0 : S8x4096x768.Idx → EReal) (x1 x3 x5 : S768x768.Idx → EReal) (x2 x4 x6 : S768.Idx → EReal) :
    val_main_v7 (F := Ideal) x0 x1 x2 x3 x4 x5 x6 = band 768 (by decide) x0 (val_main_v0 (F := Ideal) x1 x3 x5) x4 := by
  funext i
  obtain ⟨p, s, o, rfl⟩ : ∃ (p : Fin 8) (s : Fin 4096) (o : Fin 768), i = ix3 p s o := ⟨i 0, i 1, i 2, eq_ix3 i⟩
  rw [val_main_v7_apply, val_main_v5_apply, val_main_v2_apply, val_main_v4_apply, val_main_v3_apply, band_ix3]
  unfold bandAt
  have hl : ∀ k : Fin 768, lidx_main_v2 (idx_main_v7 (ix3 p s o)) k = ix3 p s k := fun k => funext fun a => Fin.ext (by
    match a with | ⟨0, _⟩ => rfl | ⟨1, _⟩ => rfl | ⟨2, _⟩ => rfl)
  have hr : ∀ k : Fin 768, ridx_main_v2 (idx_main_v7 (ix3 p s o)) k = ix2 (⟨768 + o.val, by have := o.isLt; omega⟩ : Fin 2304) k :=
    fun k => funext fun a => Fin.ext (by
      match a with | ⟨0, _⟩ => rfl | ⟨1, _⟩ => rfl)
  have hb : idx_main_v3 (idx_main_v4 (idx_main_v7 (ix3 p s o))) = ix1 (⟨768 + o.val, by have := o.isLt; omega⟩ : Fin 2304) :=
    funext fun a => Fin.ext (by match a with | ⟨0, _⟩ => rfl)
  rw [hb, bias_second]
  exact congrArg (· + x4 (ix1 o)) (Finset.sum_congr rfl fun k _ => by rw [hl k, hr k])

/-- The third result is band 1536, plus the third bias. -/
theorem third_is_band (x0 : S8x4096x768.Idx → EReal) (x1 x3 x5 : S768x768.Idx → EReal) (x2 x4 x6 : S768.Idx → EReal) :
    val_main_v8 (F := Ideal) x0 x1 x2 x3 x4 x5 x6 = band 1536 (by decide) x0 (val_main_v0 (F := Ideal) x1 x3 x5) x6 := by
  funext i
  obtain ⟨p, s, o, rfl⟩ : ∃ (p : Fin 8) (s : Fin 4096) (o : Fin 768), i = ix3 p s o := ⟨i 0, i 1, i 2, eq_ix3 i⟩
  rw [val_main_v8_apply, val_main_v5_apply, val_main_v2_apply, val_main_v4_apply, val_main_v3_apply, band_ix3]
  unfold bandAt
  have hl : ∀ k : Fin 768, lidx_main_v2 (idx_main_v8 (ix3 p s o)) k = ix3 p s k := fun k => funext fun a => Fin.ext (by
    match a with | ⟨0, _⟩ => rfl | ⟨1, _⟩ => rfl | ⟨2, _⟩ => rfl)
  have hr : ∀ k : Fin 768, ridx_main_v2 (idx_main_v8 (ix3 p s o)) k = ix2 (⟨1536 + o.val, by have := o.isLt; omega⟩ : Fin 2304) k :=
    fun k => funext fun a => Fin.ext (by
      match a with | ⟨0, _⟩ => rfl | ⟨1, _⟩ => rfl)
  have hb : idx_main_v3 (idx_main_v4 (idx_main_v8 (ix3 p s o))) = ix1 (⟨1536 + o.val, by have := o.isLt; omega⟩ : Fin 2304) :=
    funext fun a => Fin.ext (by match a with | ⟨0, _⟩ => rfl)
  rw [hb, bias_third]
  exact congrArg (· + x6 (ix1 o)) (Finset.sum_congr rfl fun k _ => by rw [hl k, hr k])

end Cert.ReferenceIdeal.RefValue

end
-- ==== Proof.lean ====
/-
  A fused query / key / value projection: 8 x 4096 activation rows of 768 features against three 768 x 768 weight matrices
  and three biases of length 768. Both programs compute, for each of the three outputs and each (p, s, o),

      sum over k < 768 of  x[p, s, k] * W_j[o, k]   +   b_j[o],          j = query, key, value.

  The kernel flattens the rows to 32768 x 768, stacks the three weights row-wise, transposes the stack to 768 x 2304, and
  runs 32 grid points, each multiplying a 1024-row tile by the whole transposed stack and storing the three 768-column
  bands of the product, each plus its bias row; the three 32768 x 768 results are then relaid to 8 x 4096 x 768. The
  reference contracts all rows against the same row-wise stack at once, adds the three biases laid end to end, and cuts
  the result into the same three bands. On the extended reals the two are the same sums of the same products over the
  same index set, so the results agree entry by entry; no arithmetic law beyond that is used, and the finiteness of the
  inputs is never needed.

  The frames: each kernel program terminates on every weakly fair execution, faults nowhere, and leaves its seven arguments
  as launched (they are written neither by the host operations nor by the region, whose arrays are other buffers); the
  reference is a straight line of host operations. The idealization rewrote nothing, so it is the program's own text read
  on the extended reals.
-/
import proofs.«130201_j19533511262281_2_alg».proof.Defs
import proofs.«130201_j19533511262281_2_alg».proof.Proof.Gen.Kernel
import proofs.«130201_j19533511262281_2_alg».proof.Proof.Gen.KernelIdeal
import proofs.«130201_j19533511262281_2_alg».proof.Proof.Gen.ReferenceIdeal
import proofs.«130201_j19533511262281_2_alg».proof.Proof.Gen.Pre_finite_inputs
import proofs.«130201_j19533511262281_2_alg».proof.Proof.KernelBody
import proofs.«130201_j19533511262281_2_alg».proof.Proof.IdealValue
import proofs.«130201_j19533511262281_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Fr.frame m ρ

/-- So does the kernel read on the extended reals. -/
theorem frame_ideal : Cert.frame_KernelIdeal := fun m ρ _ => Cert.KernelIdeal.Fr.frame m ρ

/-- The reference is a straight line of host operations: its run, with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- Nothing was rewritten. -/
theorem preserves : Cert.preserves_Kernel_KernelIdeal := trivial

/-- The row-wise stack of the three weights is one array, spelt the same by both programs. -/
theorem stacked_same (m : (ℓ : Loc Cert.KernelIdeal.nD Cert.KernelIdeal.τ Cert.KernelIdeal.sig) → Buf (Elt Ideal) ℓ) (c : Dev Cert.KernelIdeal.nD) :
    Cert.ReferenceIdeal.Read.val_main_v0 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg5))
      = Cert.KernelIdeal.Fr.stacked m c := rfl

/-- From memories agreeing on the arguments both programs end with each result at the same band of the projection. -/
theorem algebraic : Cert.algebraic_KernelIdeal_ReferenceIdeal := by
  intro m ρ m' ρ' _ hagree
  refine ⟨_, _, _, Cert.KernelIdeal.Fr.run_bands m ρ, ?_⟩
  refine (θ_run Cert.ReferenceIdeal.defs _ _).mono (fun _ h c => ?_) (Cert.ReferenceIdeal.Value.run (F := Ideal) m' ρ')
  obtain ⟨h6, h7, h8, hkept⟩ := h c
  obtain ⟨a0, a1, a2, a3, a4, a5, a6⟩ := hagree c
  refine ⟨?_, ?_, ?_, hkept⟩
  · rw [h6, Cert.ReferenceIdeal.Read.val_main_v6_eq, Cert.ReferenceIdeal.RefValue.first_is_band, a0, a1, a2, a3, a5, stacked_same]
  · rw [h7, Cert.ReferenceIdeal.Read.val_main_v7_eq, Cert.ReferenceIdeal.RefValue.second_is_band, a0, a1, a3, a4, a5, stacked_same]
  · rw [h8, Cert.ReferenceIdeal.Read.val_main_v8_eq, Cert.ReferenceIdeal.RefValue.third_is_band, a0, a1, a3, a5, a6, stacked_same]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
